-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1001 : Shape := ⟨1, ![1001]⟩
abbrev S_ : Shape := ⟨0, ![]⟩

class Facts : Prop where
  bcast_S_S1001 : S_.BroadcastsInDim S1001 (![] : Fin 0 → Fin S1001.rank)
  reducesTo_S1001_S_d0 : S1001.ReducesTo [0] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1001 .f32) : IVec S_ 1 :=
  let main_v0 : FVec F S1001 .f32 := Host.absf main_arg1
  let main_cst : FVec F S_ .f32 := constant S_ .f32 0x7F800000#32
  let main_v1 : FVec F S1001 .f32 := broadcastInDim S1001 ![] bcast_S_S1001 main_cst
  let main_v2 : IVec S1001 1 := cmpf .olt main_v0 main_v1
  let main_c : IVec S_ 1 := constantI S_ 1 1#1
  let main_v3 : IVec S_ 1 := (fun x v => Host.reduce IntOp.andi x v reducesTo_S1001_S_d0 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1001 : Shape := ⟨1, ![1001]⟩
abbrev S1024 : Shape := ⟨1, ![1024]⟩
abbrev S_ : Shape := ⟨0, ![]⟩
abbrev S16 : Shape := ⟨1, ![16]⟩
abbrev S512 : Shape := ⟨1, ![512]⟩

abbrev nBuf : Table → Nat
  | .hbm => 3
  | .local .scVector .vmem => 3
  | _ => 0

abbrev bufTy : (tb : Table) → Fin (nBuf tb) → BufTy
  | .hbm, ⟨0, _⟩ => ⟨S16384, .i32⟩
  | .hbm, ⟨1, _⟩ => ⟨S1001, .f32⟩
  | .hbm, ⟨2, _⟩ => ⟨S16384, .f32⟩
  | .local .scVector .vmem, ⟨0, _⟩ => ⟨S1001, .f32⟩
  | .local .scVector .vmem, ⟨1, _⟩ => ⟨S1024, .i32⟩
  | .local .scVector .vmem, ⟨2, _⟩ => ⟨S1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k0_t1_loop : Scf.Loop 32 :=
  let c0_i32 : BitVec 32 := 0#32
  let c32_i32 : BitVec 32 := 32#32
  let v7 : BitVec 32 := Scalar.addi c0_i32 c32_i32
  let c1_i32_0 : BitVec 32 := 1#32
  ⟨c0_i32, v7, c1_i32_0⟩
def k0_off2 (k0_t1 : Fin k0_t1_loop.trips) : Fin 1 → Nat :=
  let c0_i32_15 : BitVec 32 := 0#32
  let c0_i32 : BitVec 32 := 0#32
  let c1_i32_0 : BitVec 32 := 1#32
  let arg11 : BitVec 32 := Scf.iv c0_i32 c1_i32_0 k0_t1
  let c1_i32_14 : BitVec 32 := 1#32
  let v26 : BitVec 32 := Scalar.muli arg11 c1_i32_14
  let v27 : BitVec 32 := Scalar.addi c0_i32_15 v26
  let c16_i32 : BitVec 32 := 16#32
  let v28 : BitVec 32 := Scalar.muli v27 c16_i32
  let v29 : Index := Scalar.indexCast v28
  ![v29.toNat]

def k0_chk1 (v34 : IVec S16 32) : Prop :=
  (∀ a x, ((![v34] : Fin 1 → IVec S16 32) a x).toNat < S1001.size a)
instance k0_chk1.dec : ∀ (v34 : IVec S16 32), Decidable (k0_chk1 v34) := fun v34 => decidable_of_iff' _ (Iff.of_eq (k0_chk1.eq_1 v34))
theorem k0_idx1_inb : ∀ (v34 : IVec S16 32) (k0_hw1 : k0_chk1 v34), ∀ a x, ((![v34] : Fin 1 → IVec S16 32) a x).toNat < S1001.size a := fun v34 k0_hw1 => k0_hw1
def k0_off3 (k0_t1 : Fin k0_t1_loop.trips) : Fin 1 → Nat :=
  let c0_i32_15 : BitVec 32 := 0#32
  let c0_i32 : BitVec 32 := 0#32
  let c1_i32_0 : BitVec 32 := 1#32
  let arg11 : BitVec 32 := Scf.iv c0_i32 c1_i32_0 k0_t1
  let c1_i32_14 : BitVec 32 := 1#32
  let v26 : BitVec 32 := Scalar.muli arg11 c1_i32_14
  let v27 : BitVec 32 := Scalar.addi c0_i32_15 v26
  let c16_i32 : BitVec 32 := 16#32
  let v28 : BitVec 32 := Scalar.muli v27 c16_i32
  let v36 : Index := Scalar.indexCast v28
  ![v36.toNat]
def k0_off4 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k0_t2_loop : Scf.Loop 32 :=
  let c0_i32_4 : BitVec 32 := 0#32
  let c32_i32_5 : BitVec 32 := 32#32
  let v12 : BitVec 32 := Scalar.addi c0_i32_4 c32_i32_5
  let c1_i32_6 : BitVec 32 := 1#32
  ⟨c0_i32_4, v12, c1_i32_6⟩
def k0_off5 (k0_t2 : Fin k0_t2_loop.trips) : Fin 1 → Nat :=
  let c32_i32_15 : BitVec 32 := 32#32
  let c0_i32_4 : BitVec 32 := 0#32
  let c1_i32_6 : BitVec 32 := 1#32
  let arg11 : BitVec 32 := Scf.iv c0_i32_4 c1_i32_6 k0_t2
  let c1_i32_14 : BitVec 32 := 1#32
  let v26 : BitVec 32 := Scalar.muli arg11 c1_i32_14
  let v27 : BitVec 32 := Scalar.addi c32_i32_15 v26
  let c16_i32 : BitVec 32 := 16#32
  let v28 : BitVec 32 := Scalar.muli v27 c16_i32
  let v29 : Index := Scalar.indexCast v28
  ![v29.toNat]

def k0_chk2 (v34 : IVec S16 32) : Prop :=
  (∀ a x, ((![v34] : Fin 1 → IVec S16 32) a x).toNat < S1001.size a)
instance k0_chk2.dec : ∀ (v34 : IVec S16 32), Decidable (k0_chk2 v34) := fun v34 => decidable_of_iff' _ (Iff.of_eq (k0_chk2.eq_1 v34))
theorem k0_idx2_inb : ∀ (v34 : IVec S16 32) (k0_hw2 : k0_chk2 v34), ∀ a x, ((![v34] : Fin 1 → IVec S16 32) a x).toNat < S1001.size a := fun v34 k0_hw2 => k0_hw2
def k0_off6 (k0_t2 : Fin k0_t2_loop.trips) : Fin 1 → Nat :=
  let c32_i32_15 : BitVec 32 := 32#32
  let c0_i32_4 : BitVec 32 := 0#32
  let c1_i32_6 : BitVec 32 := 1#32
  let arg11 : BitVec 32 := Scf.iv c0_i32_4 c1_i32_6 k0_t2
  let c1_i32_14 : BitVec 32 := 1#32
  let v26 : BitVec 32 := Scalar.muli arg11 c1_i32_14
  let v27 : BitVec 32 := Scalar.addi c32_i32_15 v26
  let c16_i32 : BitVec 32 := 16#32
  let v28 : BitVec 32 := Scalar.muli v27 c16_i32
  let v36 : Index := Scalar.indexCast v28
  ![v36.toNat]
def k0_off7 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let c512_i32 : BitVec 32 := 512#32
  let v13 : BitVec 32 := Scalar.addi v2 c512_i32
  ![v13.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  h_S1001 : 0 < S1001.numel
  inb_S1024_S512_0 : ∀ a, (![0] : Fin 1 → Nat) a + S512.size a ≤ S1024.size a
  inb_S1024_S512_512 : ∀ a, (![512] : Fin 1 → Nat) a + S512.size a ≤ S1024.size a
  hcc0_scratch3 : 0 + S_.numel ≤ 3
  hcc0_scratch4 : 1 + S_.numel ≤ 3
  hcc0_scratch5 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S16384.size a
  k0_t1_ok : k0_t1_loop.OK
  k0_off2_inb : ∀ k0_t1 : Fin k0_t1_loop.trips, ∀ a, (k0_off2 k0_t1) a + S16.size a ≤ S1024.size a
  k0_off3_inb : ∀ k0_t1 : Fin k0_t1_loop.trips, ∀ a, (k0_off3 k0_t1) a + S16.size a ≤ S1024.size a
  k0_off4_inb : ∀ i : grid0.Coords, ∀ a, (k0_off4 i) a + S512.size a ≤ S16384.size a
  k0_t2_ok : k0_t2_loop.OK
  k0_off5_inb : ∀ k0_t2 : Fin k0_t2_loop.trips, ∀ a, (k0_off5 k0_t2) a + S16.size a ≤ S1024.size a
  k0_off6_inb : ∀ k0_t2 : Fin k0_t2_loop.trips, ∀ a, (k0_off6 k0_t2) a + S16.size a ≤ S1024.size a
  k0_off7_inb : ∀ i : grid0.Coords, ∀ a, (k0_off7 i) a + S512.size a ≤ S16384.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5

class Facts : Prop extends Facts₀ where

variable [Facts]
-- ==== ReferenceIdeal.lean ====
abbrev S16384 : Shape := ⟨1, ![16384]⟩
abbrev S1001 : Shape := ⟨1, ![1001]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1001, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v1 : Ref sig .tc := ⟨.hbm, 31, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  gather_S1001_S16384x1_S16384_n_0_n_n_0_1_1_wf : GatherDims.WF S1001 S16384x1 S16384 [] [0] [] [0] [] 1 ![1]

variable [Facts₀]

def gather_S1001_S16384x1_S16384_n_0_n_n_0_1_1 : GatherDims S1001 S16384x1 S16384 where
  offsetDims := []
  collapsedSliceDims := [0]
  operandBatchingDims := []
  startIndicesBatchingDims := []
  startIndexMap := [0]
  indexVectorDim := 1
  sliceSizes := ![1]
  wf := gather_S1001_S16384x1_S16384_n_0_n_n_0_1_1_wf

class Facts : Prop extends Facts₀ where

variable [Facts]
-- ==== Proof.Spec.lean ====
/-
  The function both programs compute: a table lookup at a clamped index.
  For a word `w` read as a signed 32-bit integer, `clampW w` is `min (max w 0) 999`; it always lies in
  `[0, 999]`, so its value as a natural number names an entry of a table of 1001 entries. The result array
  holds, at every position `i`, the table's entry at the clamped word of `t i`:
  `look t tbl i = tbl (clampW (t i))`. Nothing here depends on how floats are read: the entries are moved, never
  computed with.
-/
import Idealize.ShloMosaic.PureOps

namespace Cert.Lookup

open Idealize.ShloMosaic

abbrev S16384 : Shape := ⟨1, ![16384]⟩
abbrev S1001 : Shape := ⟨1, ![1001]⟩

/-- A signed word clamped to `[0, 999]`. -/
def clampW (w : BitVec 32) : BitVec 32 := IntOp.minsi (IntOp.maxsi w 0#32) 999#32

/-- The clamped word is at most 999 as a natural number. -/
theorem clampW_le (w : BitVec 32) : (clampW w).toNat ≤ 999 := by
  unfold clampW IntOp.minsi IntOp.maxsi
  by_cases h1 : (0#32).slt w
  · rw [if_pos h1]
    by_cases h2 : w.slt 999#32
    · rw [if_pos h2]
      simp only [BitVec.slt_eq_decide, decide_eq_true_eq, BitVec.toInt_eq_toNat_cond, BitVec.toNat_ofNat, Nat.reducePow, Nat.reduceMod] at h1 h2
      split at h2 <;> omega
    · rw [if_neg h2]; decide
  · rw [if_neg h1]; decide

theorem clampW_lt (w : BitVec 32) : (clampW w).toNat < 1001 := Nat.lt_of_le_of_lt (clampW_le w) (by decide)

/-- The clamp spelt with the bounds first, as a host program's `maximum lo x` / `minimum hi y` spell it. -/
theorem clampW_comm (w : BitVec 32) : IntOp.minsi 999#32 (IntOp.maxsi 0#32 w) = clampW w := by
  have e0 : (0#32 : BitVec 32).toInt = 0 := by decide
  have e9 : (999#32 : BitVec 32).toInt = 999 := by decide
  have s1 : w.slt 0#32 = decide (w.toInt < 0) := by rw [BitVec.slt_eq_decide, e0]
  have s2 : (0#32).slt w = decide (0 < w.toInt) := by rw [BitVec.slt_eq_decide, e0]
  have s3 : w.slt 999#32 = decide (w.toInt < 999) := by rw [BitVec.slt_eq_decide, e9]
  have s4 : (999#32).slt w = decide (999 < w.toInt) := by rw [BitVec.slt_eq_decide, e9]
  have s5 : (999#32 : BitVec 32).slt 0#32 = false := by decide
  have s6 : (0#32 : BitVec 32).slt 999#32 = true := by decide
  unfold clampW IntOp.minsi IntOp.maxsi
  rw [s1, s2]
  by_cases h1 : w.toInt < 0
  · have h2 : ¬ 0 < w.toInt := by omega
    simp [h1, h2, s5, s6]
  · by_cases h2 : 0 < w.toInt
    · by_cases h3 : w.toInt < 999
      · have h4 : ¬ 999 < w.toInt := by omega
        simp [h1, h2, h3, h4, s3, s4]
      · by_cases h4 : 999 < w.toInt
        · simp [h1, h2, h3, h4, s3, s4]
        · have : w = 999#32 := BitVec.eq_of_toInt_eq (by rw [e9]; omega)
          subst this; decide
    · have : w = 0#32 := BitVec.eq_of_toInt_eq (by rw [e0]; omega)
      subst this; decide

/-- The table entry a word names after clamping. -/
def tblIdx (w : BitVec 32) : S1001.Idx :=
  fun a => ⟨(clampW w).toNat, by obtain rfl : a = 0 := Subsingleton.elim _ _; exact clampW_lt w⟩

/-- The lookup: position `i` of the result is the table's entry at the clamped word of `t i`. -/
def look {α : Type} (t : IVec S16384 32) (tbl : S1001.Idx → α) : S16384.Idx → α := fun i => tbl (tblIdx (t i))

end Cert.Lookup
-- ==== Proof.KI.Common.lean ====
/-
  The idealized kernel as the launch of a SparseCore call sees it, and what the call's handshakes carry.
  The kernel is one vector-subcore call on one SparseCore: sixteen tasks, task `i` working on positions
  `[1024·i, 1024·i + 1024)` of the index array `t` and of the result `out`, every task reading the whole table.
  So the call takes `t`, the table and `out` whole; task `i` is handed block `i` of `t` and of `out` outright and one
  read share of the table (the sixteen shares, with a remainder that stays behind, make up the whole); it hands back
  the same, block `i` of `out` now holding the lookup `look t tbl` at its positions; the blocks put together are
  `out` whole at `look t tbl`.
-/
import proofs.«204889_g41197326303608_cont_8to1_b_1968_17_alg».proof.KernelIdeal
import proofs.«204889_g41197326303608_cont_8to1_b_1968_17_alg».proof.Proof.Gen.KernelIdeal
import proofs.«204889_g41197326303608_cont_8to1_b_1968_17_alg».proof.Proof.Gen.KernelIdeal.Skeleton
import proofs.«204889_g41197326303608_cont_8to1_b_1968_17_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array `t`, the table and the result, as locations of device `d`. -/
abbrev tLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- What the result array holds in the end: the lookup of the launch contents. -/
def outG (d : Dev nD) : Buf (Elt F) (oLoc d) := Cert.Lookup.look (m (tLoc d)) (m (xLoc d))

theorem outG_apply (d : Dev nD) (j : S16384.Idx) : outG m d j = m (xLoc d) (Cert.Lookup.tblIdx (m (tLoc d) j)) := rfl

/-- The sixteen blocks of 1024 positions. -/
theorem hdiv : 16 ∣ S16384.size 0 := ⟨1024, rfl⟩
abbrev row (i : Fin 16) : Rect S16384 := Rect.part (s := S16384) (a₀ := 0) hdiv i
abbrev rowSet (i : Fin 16) : Finset S16384.Idx :=
  ((Memref.whole main_arg0_scv : Memref sig .scVector .hbm S16384 .i32).view.slice (row i)).set

abbrev tPts (d : Dev nD) : sProp 𝕄 := tLoc d ↦{fullShare} m (tLoc d)
abbrev xPts (d : Dev nD) : sProp 𝕄 := xLoc d ↦{fullShare} m (xLoc d)
abbrev oPts (d : Dev nD) (f : Buf (Elt F) (oLoc d)) : sProp 𝕄 := oLoc d ↦{fullShare} f
abbrev tRowPts (d : Dev nD) (i : Fin 16) : sProp 𝕄 := tLoc d ↦[rowSet i]{fullShare} m (tLoc d)
/-- Task `i`'s read share of the table. -/
abbrev xTok (d : Dev nD) (i : Fin 16) : sProp 𝕄 := xLoc d ↦{Transfers.shareTok fullShare 16 i} m (xLoc d)
abbrev oRowPts (d : Dev nD) (i : Fin 16) (f : Buf (Elt F) (oLoc d)) : sProp 𝕄 := oLoc d ↦[rowSet i]{fullShare} f

/-- The one call takes the three arrays whole and brings them back, the result at the lookup; task `i` takes block
    `i` of `t` and of the result and its share of the table, and brings them back, its block of the result at the lookup. -/
def P : (K (F := F)).Pay (nD := nD) (Val := Elt F) (Name := ℕ) (U := UU) where
  st := fun q d _ => match q with | 0 => iprop(tPts m d ∗ xPts m d ∗ oPts d (m (oLoc d)))
  dn := fun q d _ => match q with | 0 => iprop(tPts m d ∗ xPts m d ∗ oPts d (outG m d))
  go := fun q d _ i => match q with
    | 0 => iprop(tRowPts m d (Fin.cast nSub_zero i) ∗ xTok m d (Fin.cast nSub_zero i) ∗ oRowPts d (Fin.cast nSub_zero i) (m (oLoc d)))
  td := fun q d _ i => match q with
    | 0 => iprop(tRowPts m d (Fin.cast nSub_zero i) ∗ xTok m d (Fin.cast nSub_zero i) ∗ oRowPts d (Fin.cast nSub_zero i) (outG m d))
  x := fun _ _ => iprop(emp)

instance P_storable : (P (F := F) m).IsStorable where
  st q d _ := match q with
    | 0 => (inferInstance : BI.Storable (upEmb : UEmb _ 𝕄) iprop(tPts m d ∗ xPts m d ∗ oPts d (m (oLoc d))))
  dn q d _ := match q with
    | 0 => (inferInstance : BI.Storable (upEmb : UEmb _ 𝕄) iprop(tPts m d ∗ xPts m d ∗ oPts d (outG m d)))
  go q d _ i := match q with
    | 0 => (inferInstance : BI.Storable (upEmb : UEmb _ 𝕄)
        iprop(tRowPts m d (Fin.cast nSub_zero i) ∗ xTok m d (Fin.cast nSub_zero i) ∗ oRowPts d (Fin.cast nSub_zero i) (m (oLoc d))))
  td q d _ i := match q with
    | 0 => (inferInstance : BI.Storable (upEmb : UEmb _ 𝕄)
        iprop(tRowPts m d (Fin.cast nSub_zero i) ∗ xTok m d (Fin.cast nSub_zero i) ∗ oRowPts d (Fin.cast nSub_zero i) (outG m d)))

end Cert.Proof.KI

end
-- ==== Proof.KI.Body.lean ====
/-
  One task of the idealized kernel, on vector subcore `(L 0, L 1)`: it copies the whole table and its own block of
  1024 indices into its scratch memory and waits for both copies; in two loops of 32 trips, trip `k` reads sixteen
  indices, clamps each to `[0, 999]`, reads the table's entries they name and writes them at the same sixteen
  positions of the result scratch (the first loop fills positions `[0, 512)`, the second `[512, 1024)`); the first
  half is copied out to the task's block of the result while the second loop runs — the copy reads positions the
  second loop never touches —, then the second half, and both copies are waited for. So position `p` of the block ends
  holding the table's entry at the clamped `p`-th index of the block: the lookup.
-/
import proofs.«204889_g41197326303608_cont_8to1_b_1968_17_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "tW" => (Memref.whole Cert.KernelIdeal.main_arg0_scv : Memref Cert.KernelIdeal.sig Kind.scVector Space.hbm Cert.KernelIdeal.S16384 EltTy.i32)
local notation "xW" => (Memref.whole Cert.KernelIdeal.main_arg1_scv : Memref Cert.KernelIdeal.sig Kind.scVector Space.hbm Cert.KernelIdeal.S1001 EltTy.f32)
local notation "oW" => (Memref.whole Cert.KernelIdeal.main_v0_scv : Memref Cert.KernelIdeal.sig Kind.scVector Space.hbm Cert.KernelIdeal.S16384 EltTy.f32)
local notation "sT" => (Memref.whole Cert.KernelIdeal.cc0_scratch0 : Memref Cert.KernelIdeal.sig Kind.scVector Space.vmem Cert.KernelIdeal.S1001 EltTy.f32)
local notation "sI" => (Memref.whole Cert.KernelIdeal.cc0_scratch1 : Memref Cert.KernelIdeal.sig Kind.scVector Space.vmem Cert.KernelIdeal.S1024 EltTy.i32)
local notation "sR" => (Memref.whole Cert.KernelIdeal.cc0_scratch2 : Memref Cert.KernelIdeal.sig Kind.scVector Space.vmem Cert.KernelIdeal.S1024 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The task's block of `t`, the two halves of its block of the result, the two halves of the result scratch, as the
    program slices them. -/
abbrev tRowK (L : grid0.Coords) : Memref sig .scVector .hbm S1024 .i32 :=
  (tW).slice (Rect.unit (s := S16384) (k0_off1 L) S1024.size (k0_off1_inb L)) (fun _ => rfl)
abbrev oLoK (L : grid0.Coords) : Memref sig .scVector .hbm S512 .f32 :=
  (oW).slice (Rect.unit (s := S16384) (k0_off4 L) S512.size (k0_off4_inb L)) (fun _ => rfl)
abbrev oHiK (L : grid0.Coords) : Memref sig .scVector .hbm S512 .f32 :=
  (oW).slice (Rect.unit (s := S16384) (k0_off7 L) S512.size (k0_off7_inb L)) (fun _ => rfl)
abbrev rLo : Memref sig .scVector .vmem S512 .f32 :=
  (sR).slice (Rect.unit (s := S1024) ![0] S512.size inb_S1024_S512_0) (fun _ => rfl)
abbrev rHi : Memref sig .scVector .vmem S512 .f32 :=
  (sR).slice (Rect.unit (s := S1024) ![512] S512.size inb_S1024_S512_512) (fun _ => rfl)

/-! ### The task's own semaphores and scratch buffers -/

abbrev cTcell (d : Dev nD) (c : Fin τ.nSC) (i : Fin τ.nSub) : GSem nD τ sig := (V d c i, .dma cc0_scratch3.sem)
abbrev cIcell (d : Dev nD) (c : Fin τ.nSC) (i : Fin τ.nSub) : GSem nD τ sig := (V d c i, .dma cc0_scratch4.sem)
abbrev cOcell (d : Dev nD) (c : Fin τ.nSC) (i : Fin τ.nSub) : GSem nD τ sig := (V d c i, .dma cc0_scratch5.sem)

omit [FloatOps F] in
theorem ownSems0_V :
    (ownSems0 (V d (cV L) (jV L)) : sProp 𝕄)
      = iprop(semVal (cTcell d (cV L) (jV L)) 0 ∗ semVal (cIcell d (cV L) (jV L)) 0 ∗ semVal (cOcell d (cV L) (jV L)) 0
          ∗ bigSep ((((ownCells (V d (cV L) (jV L))).erase (cTcell d (cV L) (jV L))).erase (cIcell d (cV L) (jV L))).erase (cOcell d (cV L) (jV L)))
              fun g => semVal g 0) := by
  unfold SparseCore.Cfg.ownSems0
  rw [SparseCore.bigSep_erase' ((mem_ownCells (g := cTcell d (cV L) (jV L))).mpr ⟨rfl, by
      show (SemLoc.dma cc0_scratch3.sem : SemLoc sig).isScoped .scVector = true; decide⟩),
    SparseCore.bigSep_erase' (Finset.mem_erase.mpr ⟨by simp [cTcell, cIcell]; decide, (mem_ownCells (g := cIcell d (cV L) (jV L))).mpr ⟨rfl, by
      show (SemLoc.dma cc0_scratch4.sem : SemLoc sig).isScoped .scVector = true; decide⟩⟩),
    SparseCore.bigSep_erase' (Finset.mem_erase.mpr ⟨by simp [cIcell, cOcell]; decide, Finset.mem_erase.mpr ⟨by simp [cTcell, cOcell]; decide,
      (mem_ownCells (g := cOcell d (cV L) (jV L))).mpr ⟨rfl, by show (SemLoc.dma cc0_scratch5.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ### The blocks as the launch names them and as the program slices them -/

omit [FloatOps F] in
/-- The task's block of `t` is block `L 1` of the sixteen. -/
theorem tRect_eq : Rect.unit (s := S16384) (k0_off1 L) S1024.size (k0_off1_inb L) = row (jL L) := by
  unfold row Rect.part Rect.block
  congr 1 <;> funext a
  · rw [k0_off1_eq]
    match a with
    | 0 => simp [Shape.partIx, Shape.partSize]; omega
  · match a with
    | 0 => simp [Shape.partSize]

omit [FloatOps F] in
theorem set_tRowK : (tRowK L).view.set = rowSet (jL L) := by
  show ((tW).view.slice (Rect.unit (s := S16384) (k0_off1 L) S1024.size (k0_off1_inb L))).set = ((tW).view.slice (row (jL L))).set
  rw [tRect_eq]

omit [FloatOps F] in
theorem pts_tRowK (f : Buf (Elt F) (tLoc d)) :
    ((tRowK L).view.loc (V d (cV L) (jV L)) ↦[(tRowK L).view.set]{fullShare} f : sProp 𝕄) = tLoc d ↦[rowSet (jL L)]{fullShare} f := by
  rw [set_tRowK]

omit [FloatOps F] in
theorem pts_xW (q : PosShare TreeShare) (f : Buf (Elt F) (xLoc d)) :
    ((xW).view.loc (V d (cV L) (jV L)) ↦{q} f : sProp 𝕄) = xLoc d ↦{q} f := rfl

omit [FloatOps F] in
theorem rowSet_eq (i : Fin 16) : rowSet i = (row i).set := by
  show ((View.whole (main_arg0_scv : Ref sig .scVector)).slice (row i)).set = _
  rw [View.set_slice]; exact Finset.map_refl

omit [FloatOps F] in
/-- Block `L 1` holds the positions `[1024·(L 1), 1024·(L 1) + 1024)`. -/
theorem mem_rowSet (j : S16384.Idx) : j ∈ rowSet (jL L) ↔ 1024 * (L 1).val ≤ (j 0).val ∧ (j 0).val < 1024 * (L 1).val + 1024 := by
  have h0 : (L 0).val < 1 := (L 0).isLt
  rw [rowSet_eq, ← tRect_eq, Rect.mem_set_unit, k0_off1_eq]
  constructor
  · intro h; have := h 0; simp at this; omega
  · intro h a; obtain rfl : a = 0 := Subsingleton.elim _ _; simp; omega

omit [FloatOps F] in
theorem mem_oLo (j : S16384.Idx) : j ∈ (oLoK L).view.set ↔ 1024 * (L 1).val ≤ (j 0).val ∧ (j 0).val < 1024 * (L 1).val + 512 := by
  have h0 : (L 0).val < 1 := (L 0).isLt
  have e : (oLoK L).view.set = (Rect.unit (s := S16384) (k0_off4 L) S512.size (k0_off4_inb L)).set := by
    show ((View.whole (main_v0_scv : Ref sig .scVector)).slice _).set = _
    rw [View.set_slice]; exact Finset.map_refl
  refine (Finset.ext_iff.mp e j).trans ?_
  rw [Rect.mem_set_unit, k0_off4_eq]
  constructor
  · intro h; have := h 0; simp at this; omega
  · intro h a; obtain rfl : a = 0 := Subsingleton.elim _ _; simp; omega

omit [FloatOps F] in
theorem mem_oHi (j : S16384.Idx) : j ∈ (oHiK L).view.set ↔ 1024 * (L 1).val + 512 ≤ (j 0).val ∧ (j 0).val < 1024 * (L 1).val + 1024 := by
  have h0 : (L 0).val < 1 := (L 0).isLt
  have e : (oHiK L).view.set = (Rect.unit (s := S16384) (k0_off7 L) S512.size (k0_off7_inb L)).set := by
    show ((View.whole (main_v0_scv : Ref sig .scVector)).slice _).set = _
    rw [View.set_slice]; exact Finset.map_refl
  refine (Finset.ext_iff.mp e j).trans ?_
  rw [Rect.mem_set_unit, k0_off7_eq]
  constructor
  · intro h; have := h 0; simp at this; omega
  · intro h a; obtain rfl : a = 0 := Subsingleton.elim _ _; simp; omega

omit [FloatOps F] in
/-- The two halves of the task's block of the result are disjoint and make up the block. -/
theorem oHalves_disjoint : Disjoint (oLoK L).view.set (oHiK L).view.set :=
  Finset.disjoint_left.mpr fun j h1 h2 => by rw [mem_oLo] at h1; rw [mem_oHi] at h2; omega
omit [FloatOps F] in
theorem oHalves_union : (oLoK L).view.set ∪ (oHiK L).view.set = rowSet (jL L) := by
  ext j; rw [Finset.mem_union, mem_oLo, mem_oHi, mem_rowSet]; omega

omit [FloatOps F] in
theorem mem_rLo (j : S1024.Idx) : j ∈ (rLo).view.set ↔ (j 0).val < 512 := by
  have e : (rLo).view.set = (Rect.unit (s := S1024) ![0] S512.size inb_S1024_S512_0).set := by
    show ((View.whole (cc0_scratch2 : Ref sig .scVector)).slice _).set = _
    rw [View.set_slice]; exact Finset.map_refl
  refine (Finset.ext_iff.mp e j).trans ?_
  rw [Rect.mem_set_unit]
  constructor
  · intro h; have := h 0; simp at this; omega
  · intro h a; obtain rfl : a = 0 := Subsingleton.elim _ _; simp; omega
omit [FloatOps F] in
theorem mem_rHi (j : S1024.Idx) : j ∈ (rHi).view.set ↔ 512 ≤ (j 0).val := by
  have hj : (j 0).val < 1024 := (j 0).isLt
  have e : (rHi).view.set = (Rect.unit (s := S1024) ![512] S512.size inb_S1024_S512_512).set := by
    show ((View.whole (cc0_scratch2 : Ref sig .scVector)).slice _).set = _
    rw [View.set_slice]; exact Finset.map_refl
  refine (Finset.ext_iff.mp e j).trans ?_
  rw [Rect.mem_set_unit]
  constructor
  · intro h; have := h 0; simp at this; omega
  · intro h a; obtain rfl : a = 0 := Subsingleton.elim _ _; simp; omega
omit [FloatOps F] in
theorem rHalves_disjoint : Disjoint (rLo).view.set (rHi).view.set :=
  Finset.disjoint_left.mpr fun j h1 h2 => by rw [mem_rLo] at h1; rw [mem_rHi] at h2; omega
omit [FloatOps F] in
theorem rHalves_union : (rLo).view.set ∪ (rHi).view.set = (Finset.univ : Finset S1024.Idx) := by
  ext j; rw [Finset.mem_union, mem_rLo, mem_rHi]; simp; omega

omit [FloatOps F] in
theorem pts_oLoK (f : Buf (Elt F) (oLoc d)) :
    ((oLoK L).view.loc (V d (cV L) (jV L)) ↦[(oLoK L).view.set]{fullShare} f : sProp 𝕄) = oLoc d ↦[(oLoK L).view.set]{fullShare} f := rfl
omit [FloatOps F] in
theorem pts_oHiK (f : Buf (Elt F) (oLoc d)) :
    ((oHiK L).view.loc (V d (cV L) (jV L)) ↦[(oHiK L).view.set]{fullShare} f : sProp 𝕄) = oLoc d ↦[(oHiK L).view.set]{fullShare} f := rfl
omit [FloatOps F] in
theorem pts_sT (f : Buf (Elt F) ((V d (cV L) (jV L)).loc cc0_scratch0)) :
    ((sT).view.loc (V d (cV L) (jV L)) ↦{fullShare} f : sProp 𝕄) = (V d (cV L) (jV L)).loc cc0_scratch0 ↦{fullShare} f := rfl
omit [FloatOps F] in
theorem pts_sI (f : Buf (Elt F) ((V d (cV L) (jV L)).loc cc0_scratch1)) :
    ((sI).view.loc (V d (cV L) (jV L)) ↦{fullShare} f : sProp 𝕄) = (V d (cV L) (jV L)).loc cc0_scratch1 ↦{fullShare} f := rfl
omit [FloatOps F] in
theorem pts_sR (f : Buf (Elt F) ((V d (cV L) (jV L)).loc cc0_scratch2)) :
    ((sR).view.loc (V d (cV L) (jV L)) ↦{fullShare} f : sProp 𝕄) = (V d (cV L) (jV L)).loc cc0_scratch2 ↦{fullShare} f := rfl

omit [FloatOps F] in
/-- The task's block of the result is its two halves. -/
theorem oRow_halves (f : Buf (Elt F) (oLoc d)) :
    (oLoc d ↦[rowSet (jL L)]{fullShare} f : sProp 𝕄)
      ⊣⊢ iprop(((oLoK L).view.loc (V d (cV L) (jV L)) ↦[(oLoK L).view.set]{fullShare} f) ∗ ((oHiK L).view.loc (V d (cV L) (jV L)) ↦[(oHiK L).view.set]{fullShare} f)) := by
  rw [← oHalves_union L]; exact pointsTo_union (oHalves_disjoint L)

omit [FloatOps F] in
/-- The result scratch is its two halves. -/
theorem sR_halves (f : Buf (Elt F) ((V d (cV L) (jV L)).loc cc0_scratch2)) :
    ((sR).view.loc (V d (cV L) (jV L)) ↦{fullShare} f : sProp 𝕄)
      ⊣⊢ iprop(((rLo).view.loc (V d (cV L) (jV L)) ↦[(rLo).view.set]{fullShare} f) ∗ ((rHi).view.loc (V d (cV L) (jV L)) ↦[(rHi).view.set]{fullShare} f)) := by
  show ((V d (cV L) (jV L)).loc cc0_scratch2 ↦[Finset.univ]{fullShare} f : sProp 𝕄) ⊣⊢ _
  rw [← rHalves_union]; exact pointsTo_union rHalves_disjoint

omit [FloatOps F] in
theorem oRow_split (f : Buf (Elt F) (oLoc d)) :
    (oLoc d ↦[rowSet (jL L)]{fullShare} f : sProp 𝕄)
      ⊢ iprop(((oLoK L).view.loc (V d (cV L) (jV L)) ↦[(oLoK L).view.set]{fullShare} f) ∗ ((oHiK L).view.loc (V d (cV L) (jV L)) ↦[(oHiK L).view.set]{fullShare} f)) :=
  (oRow_halves d L f).1
omit [FloatOps F] in
theorem oRow_join (f : Buf (Elt F) (oLoc d)) :
    iprop(((oLoK L).view.loc (V d (cV L) (jV L)) ↦[(oLoK L).view.set]{fullShare} f) ∗ ((oHiK L).view.loc (V d (cV L) (jV L)) ↦[(oHiK L).view.set]{fullShare} f))
      ⊢ (oLoc d ↦[rowSet (jL L)]{fullShare} f : sProp 𝕄) :=
  (oRow_halves d L f).2
omit [FloatOps F] in
theorem sR_split (f : Buf (Elt F) ((V d (cV L) (jV L)).loc cc0_scratch2)) :
    ((sR).view.loc (V d (cV L) (jV L)) ↦{fullShare} f : sProp 𝕄)
      ⊢ iprop(((rLo).view.loc (V d (cV L) (jV L)) ↦[(rLo).view.set]{fullShare} f) ∗ ((rHi).view.loc (V d (cV L) (jV L)) ↦[(rHi).view.set]{fullShare} f)) :=
  (sR_halves d L f).1
omit [FloatOps F] in
theorem sR_join (f : Buf (Elt F) ((V d (cV L) (jV L)).loc cc0_scratch2)) :
    iprop(((rLo).view.loc (V d (cV L) (jV L)) ↦[(rLo).view.set]{fullShare} f) ∗ ((rHi).view.loc (V d (cV L) (jV L)) ↦[(rHi).view.set]{fullShare} f))
      ⊢ ((sR).view.loc (V d (cV L) (jV L)) ↦{fullShare} f : sProp 𝕄) :=
  (sR_halves d L f).2

/-! ### The arithmetic of a trip -/

omit [FloatOps F] in
/-- The index a trip computes from a loaded word is the word clamped to `[0, 999]` (both loops). -/
theorem pay1_apply (v30 : Vec F S16 .i32) (x : S16.Idx) : k0_pay1 (F := F) v30 x = Cert.Lookup.clampW (v30 x) := rfl
omit [FloatOps F] in
theorem pay2_apply (v30 : Vec F S16 .i32) (x : S16.Idx) : k0_pay2 (F := F) v30 x = Cert.Lookup.clampW (v30 x) := rfl

omit [FloatOps F] in
/-- The clamped words name entries of the table, whatever was loaded: the body's check always passes. -/
theorem chk1_all (v30 : Vec F S16 .i32) : k0_chk1 (k0_pay1 (F := F) v30) := by
  intro a x
  obtain rfl : a = 0 := Subsingleton.elim _ _
  show (k0_pay1 (F := F) v30 x).toNat < 1001
  rw [pay1_apply]; exact Cert.Lookup.clampW_lt _
omit [FloatOps F] in
theorem chk2_all (v30 : Vec F S16 .i32) : k0_chk2 (k0_pay2 (F := F) v30) := by
  intro a x
  obtain rfl : a = 0 := Subsingleton.elim _ _
  show (k0_pay2 (F := F) v30 x).toNat < 1001
  rw [pay2_apply]; exact Cert.Lookup.clampW_lt _

omit [FloatOps F] in
/-- The table entry the indexed load reads for lane `x` is the one the clamped word names. -/
theorem idxAt_pay1 (v30 : Vec F S16 .i32) (h : ∀ a x, ((![k0_pay1 (F := F) v30] : Fin 1 → IVec S16 32) a x).toNat < S1001.size a) (x : S16.Idx) :
    idxAt (s := S1001) ![k0_pay1 (F := F) v30] h x = Cert.Lookup.tblIdx (v30 x) := by
  funext a; apply Fin.ext
  obtain rfl : a = 0 := Subsingleton.elim _ _
  rfl
omit [FloatOps F] in
theorem idxAt_pay2 (v30 : Vec F S16 .i32) (h : ∀ a x, ((![k0_pay2 (F := F) v30] : Fin 1 → IVec S16 32) a x).toNat < S1001.size a) (x : S16.Idx) :
    idxAt (s := S1001) ![k0_pay2 (F := F) v30] h x = Cert.Lookup.tblIdx (v30 x) := by
  funext a; apply Fin.ext
  obtain rfl : a = 0 := Subsingleton.elim _ _
  rfl

omit [FloatOps F] in
theorem pts_sT_access (f : Buf (Elt F) ((V d (cV L) (jV L)).loc cc0_scratch0)) :
    (((sT).access (.whole S1001)).loc (V d (cV L) (jV L)) ↦{fullShare} f : sProp 𝕄) = ((sT).view.loc (V d (cV L) (jV L)) ↦{fullShare} f) := rfl

omit [FloatOps F] in
/-- One store of sixteen entries through the result scratch: at a position inside the sixteen the new value, -/
theorem store_in (g2 : Buf (Elt F) ((V d (cV L) (jV L)).loc cc0_scratch2)) (off : Fin 1 → Nat) (inb : ∀ a, off a + S16.size a ≤ S1024.size a)
    (w : S16.Idx → Elt F .f32) (p : S1024.Idx) (x : S16.Idx) (hpx : (p 0).val = off 0 + (x 0).val) :
    (sR).view.writes (Elt F) g2 [⟨Rect.unit (s := S1024) off S16.size inb, w⟩] p = w x := by
  have hp : p = ((sR).view.slice (Rect.unit (s := S1024) off S16.size inb)).emb x := by
    funext a; apply Fin.ext
    obtain rfl : a = 0 := Subsingleton.elim _ _
    show (p 0).val = off 0 + 1 * (x 0).val
    omega
  rw [View.writes_singleton, hp]
  exact (View.write_emb_of_mem _ _ (Finset.mem_univ x)).trans (cast_eq _ _)

omit [FloatOps F] in
/-- elsewhere the old one. -/
theorem store_out (g2 : Buf (Elt F) ((V d (cV L) (jV L)).loc cc0_scratch2)) (off : Fin 1 → Nat) (inb : ∀ a, off a + S16.size a ≤ S1024.size a)
    (w : S16.Idx → Elt F .f32) (p : S1024.Idx) (hout : ¬ (off 0 ≤ (p 0).val ∧ (p 0).val < off 0 + 16)) :
    (sR).view.writes (Elt F) g2 [⟨Rect.unit (s := S1024) off S16.size inb, w⟩] p = g2 p := by
  rw [View.writes_singleton]
  refine View.write_of_not_mem _ _ _ ?_
  intro hmem
  have e : ((sR).view.slice (Rect.unit (s := S1024) off S16.size inb)).set = (Rect.unit (s := S1024) off S16.size inb).set := by
    show ((View.whole (cc0_scratch2 : Ref sig .scVector)).slice _).set = _
    rw [View.set_slice]; exact Finset.map_refl
  have hmem' : p ∈ (Rect.unit (s := S1024) off S16.size inb).set := (Finset.ext_iff.mp e p).mp hmem
  have h0 := (Rect.mem_set_unit.mp hmem') 0
  apply hout
  simpa using h0

omit [FloatOps F] in
/-- A trip's effect on the result scratch. The sixteen positions from `o` on take the table's entries at the clamped
    index words of those positions; positions below `o` (from `lo` on) that held the lookup still do. -/
theorem trip_fact (G0 : Buf (Elt F) ((V d (cV L) (jV L)).loc cc0_scratch0)) (G1 : Buf (Elt F) ((V d (cV L) (jV L)).loc cc0_scratch1))
    (g2 : Buf (Elt F) ((V d (cV L) (jV L)).loc cc0_scratch2)) (o : Nat)
    (offL offS : Fin 1 → Nat) (hL : offL 0 = o) (hS : offS 0 = o)
    (inbL : ∀ a, offL a + S16.size a ≤ S1024.size a) (inbS : ∀ a, offS a + S16.size a ≤ S1024.size a)
    (pay : IVec S16 32)
    (hpay : ∀ x, pay x = Cert.Lookup.clampW ((sI).view.readAt (Elt F) (Rect.unit (s := S1024) offL S16.size inbL).toLoadRect G1 x))
    (h : ∀ a x, ((![pay] : Fin 1 → IVec S16 32) a x).toNat < S1001.size a)
    (lo : Nat) (hprev : ∀ p : S1024.Idx, lo ≤ (p 0).val → (p 0).val < o → g2 p = G0 (Cert.Lookup.tblIdx (G1 p)))
    (p : S1024.Idx) (hlo : lo ≤ (p 0).val) (hhi : (p 0).val < o + 16) :
    (sR).view.writes (Elt F) g2 [⟨Rect.unit (s := S1024) offS S16.size inbS,
        loadIdx (View.read (Elt F) ((sT).access (Rect.whole S1001)) G0) ![pay] h⟩] p = G0 (Cert.Lookup.tblIdx (G1 p)) := by
  by_cases hin : o ≤ (p 0).val
  · have hx : (p 0).val - o < 16 := by omega
    have hx' : ∀ a : Fin 1, (p 0).val - o < S16.size a := fun a => by obtain rfl : a = 0 := Subsingleton.elim _ _; exact hx
    rw [store_in d L g2 offS inbS _ p (fun a => ⟨(p 0).val - o, hx' a⟩) (by show (p 0).val = offS 0 + ((p 0).val - o); omega)]
    have hr : View.read (Elt F) ((sT).access (Rect.whole S1001)) G0 = G0 :=
      Memref.read_access_whole (Elt F) (cc0_scratch0 : Ref sig .scVector) G0
    rw [hr]
    have hidx : (Rect.unit (s := S1024) offL S16.size inbL).toLoadRect.idx (fun a => ⟨(p 0).val - o, hx' a⟩) = p := by
      funext a; apply Fin.ext
      obtain rfl : a = 0 := Subsingleton.elim _ _
      show offL 0 + 1 * ((p 0).val - o) = (p 0).val
      omega
    have hidx2 : idxAt (s := S1001) ![pay] h (fun a => ⟨(p 0).val - o, hx' a⟩) = Cert.Lookup.tblIdx (G1 p) := by
      funext a; apply Fin.ext
      obtain rfl : a = 0 := Subsingleton.elim _ _
      show (pay (fun a => ⟨(p 0).val - o, hx' a⟩)).toNat = (Cert.Lookup.clampW (G1 p)).toNat
      rw [hpay]
      show (Cert.Lookup.clampW (G1 ((Rect.unit (s := S1024) offL S16.size inbL).toLoadRect.idx (fun a => ⟨(p 0).val - o, hx' a⟩)))).toNat = _
      rw [hidx]
    exact congrArg G0 hidx2
  · rw [store_out d L g2 offS inbS _ p (by omega)]
    exact hprev p hlo (by omega)

omit [FloatOps F] in
/-- The same, the store spelt as one write through its rectangle. -/
theorem trip_fact' (G0 : Buf (Elt F) ((V d (cV L) (jV L)).loc cc0_scratch0)) (G1 : Buf (Elt F) ((V d (cV L) (jV L)).loc cc0_scratch1))
    (g2 : Buf (Elt F) ((V d (cV L) (jV L)).loc cc0_scratch2)) (o : Nat)
    (offL offS : Fin 1 → Nat) (hL : offL 0 = o) (hS : offS 0 = o)
    (inbL : ∀ a, offL a + S16.size a ≤ S1024.size a) (inbS : ∀ a, offS a + S16.size a ≤ S1024.size a)
    (pay : IVec S16 32)
    (hpay : ∀ x, pay x = Cert.Lookup.clampW ((sI).view.readAt (Elt F) (Rect.unit (s := S1024) offL S16.size inbL).toLoadRect G1 x))
    (h : ∀ a x, ((![pay] : Fin 1 → IVec S16 32) a x).toNat < S1001.size a)
    (lo : Nat) (hprev : ∀ p : S1024.Idx, lo ≤ (p 0).val → (p 0).val < o → g2 p = G0 (Cert.Lookup.tblIdx (G1 p)))
    (p : S1024.Idx) (hlo : lo ≤ (p 0).val) (hhi : (p 0).val < o + 16) :
    View.write (Elt F) ((sR).access (Rect.unit (s := S1024) offS S16.size inbS)) g2
        (loadIdx (View.read (Elt F) ((sT).access (Rect.whole S1001)) G0) ![pay] h) Finset.univ p = G0 (Cert.Lookup.tblIdx (G1 p)) :=
  trip_fact d L G0 G1 g2 o offL offS hL hS inbL inbS pay hpay h lo hprev p hlo hhi

/-- The table as launched, and the task's block of `t` as launched: what the two inbound copies land in the scratch. -/
def tblV : Buf (Elt F) ((V d (cV L) (jV L)).loc cc0_scratch0) := View.read (Elt F) (xW).view (m (xLoc d))
def idxV : Buf (Elt F) ((V d (cV L) (jV L)).loc cc0_scratch1) := View.read (Elt F) (tRowK L).view (m (tLoc d))

omit [FloatOps F] in
theorem tblV_apply (x : S1001.Idx) : tblV m d L x = m (xLoc d) x := rfl
omit [FloatOps F] in
theorem idxV_apply (p : S1024.Idx) : idxV m d L p = m (tLoc d) ((tRowK L).view.emb p) := by
  unfold idxV; rw [View.read_apply]; exact cast_eq _ _

omit [FloatOps F] in
theorem landT (f0 : Buf (Elt F) ((V d (cV L) (jV L)).loc cc0_scratch0)) (w : S1001.Idx → Elt F .f32) (hw : w = tblV m d L) :
    ((sT).view.loc (V d (cV L) (jV L)) ↦{fullShare} View.write (Elt F) (sT).view f0 w Finset.univ : sProp 𝕄)
      = ((sT).view.loc (V d (cV L) (jV L)) ↦{fullShare} tblV m d L) := by
  subst hw
  exact congrArg _ (View.write_whole_univ (Val := Elt F) (cc0_scratch0 : Ref sig .scVector) f0 _)
omit [FloatOps F] in
theorem landI (f1 : Buf (Elt F) ((V d (cV L) (jV L)).loc cc0_scratch1)) (w : S1024.Idx → Elt F .i32) (hw : w = idxV m d L) :
    ((sI).view.loc (V d (cV L) (jV L)) ↦{fullShare} View.write (Elt F) (sI).view f1 w Finset.univ : sProp 𝕄)
      = ((sI).view.loc (V d (cV L) (jV L)) ↦{fullShare} idxV m d L) := by
  subst hw
  exact congrArg _ (View.write_whole_univ (Val := Elt F) (cc0_scratch1 : Ref sig .scVector) f1 _)

omit [FloatOps F] in
/-- Position `y` of the lower half of the task's block: the same position of the result scratch's lower half, whose
    index word is the one at that position of the task's block of `t`; likewise the upper halves. -/
theorem emb_lo (y : S512.Idx) : ((tRowK L).view.emb ((rLo).view.emb y) : S16384.Idx) = ((oLoK L).view.emb y : S16384.Idx) := by
  funext a; apply Fin.ext
  have ha : a = (0 : Fin 1) := Subsingleton.elim (α := Fin 1) a 0
  subst ha
  show (k0_off1 L) 0 + 1 * (0 + 1 * (y 0).val) = (k0_off4 L) 0 + 1 * (y 0).val
  rw [k0_off1_eq, k0_off4_eq]; simp
omit [FloatOps F] in
theorem emb_hi (y : S512.Idx) : ((tRowK L).view.emb ((rHi).view.emb y) : S16384.Idx) = ((oHiK L).view.emb y : S16384.Idx) := by
  have h0 : (L 0).val < 1 := (L 0).isLt
  funext a; apply Fin.ext
  have ha : a = (0 : Fin 1) := Subsingleton.elim (α := Fin 1) a 0
  subst ha
  show (k0_off1 L) 0 + 1 * (512 + 1 * (y 0).val) = (k0_off7 L) 0 + 1 * (y 0).val
  rw [k0_off1_eq, k0_off7_eq]; simp; omega

omit [FloatOps F] in
/-- What the first outbound copy lands in the lower half of the task's block of the result is the lookup there. -/
theorem landed_lo (g2 : Buf (Elt F) ((V d (cV L) (jV L)).loc cc0_scratch2))
    (hg2 : ∀ p : S1024.Idx, (p 0).val < 16 * 32 → g2 p = tblV m d L (Cert.Lookup.tblIdx (idxV m d L p)))
    (w : S512.Idx → Elt F .f32) (hw : w = ReadAs.same.apply (View.read (Elt F) (rLo).view g2)) :
    ∀ i ∈ (oLoK L).view.set, (oLoK L).view.writes (Elt F) (m (oLoc d)) [⟨Rect.whole S512, w⟩] i = outG m d i := by
  subst hw
  intro i hi
  obtain ⟨y, -, rfl⟩ := Finset.mem_map.mp hi
  have hy : (y 0).val < 512 := (y 0).isLt
  have he : ((oLoK L).view.slice (Rect.whole S512)).emb y = (oLoK L).view.emb y := by
    show (oLoK L).view.emb ((Rect.whole S512).emb y) = _
    rw [Rect.emb_whole_apply]
  have hwv := View.write_emb_of_mem (v := (oLoK L).view.slice (Rect.whole S512)) (Val := Elt F) (m (oLoc d))
    (ReadAs.same.apply (View.read (Elt F) (rLo).view g2)) (M := Finset.univ) (x := y) (Finset.mem_univ _)
  rw [he] at hwv
  rw [View.writes_singleton, hwv, cast_eq]
  show View.read (Elt F) (rLo).view g2 y = _
  rw [View.read_apply, cast_eq, hg2 _ (by show 0 + 1 * (y 0).val < 16 * 32; omega), tblV_apply, idxV_apply, emb_lo]
  rfl

omit [FloatOps F] in
/-- And the second, in the upper half. -/
theorem landed_hi (g3 : Buf (Elt F) ((V d (cV L) (jV L)).loc cc0_scratch2))
    (hg3 : ∀ p : S1024.Idx, 512 ≤ (p 0).val → (p 0).val < 512 + 16 * 32 → g3 p = tblV m d L (Cert.Lookup.tblIdx (idxV m d L p)))
    (w : S512.Idx → Elt F .f32) (hw : w = ReadAs.same.apply (View.read (Elt F) (rHi).view g3)) :
    ∀ i ∈ (oHiK L).view.set, (oHiK L).view.writes (Elt F) (m (oLoc d)) [⟨Rect.whole S512, w⟩] i = outG m d i := by
  subst hw
  intro i hi
  obtain ⟨y, -, rfl⟩ := Finset.mem_map.mp hi
  have hy : (y 0).val < 512 := (y 0).isLt
  have he : ((oHiK L).view.slice (Rect.whole S512)).emb y = (oHiK L).view.emb y := by
    show (oHiK L).view.emb ((Rect.whole S512).emb y) = _
    rw [Rect.emb_whole_apply]
  have hwv := View.write_emb_of_mem (v := (oHiK L).view.slice (Rect.whole S512)) (Val := Elt F) (m (oLoc d))
    (ReadAs.same.apply (View.read (Elt F) (rHi).view g3)) (M := Finset.univ) (x := y) (Finset.mem_univ _)
  rw [he] at hwv
  rw [View.writes_singleton, hwv, cast_eq]
  show View.read (Elt F) (rHi).view g3 y = _
  rw [View.read_apply, cast_eq, hg3 _ (by show 512 ≤ 512 + 1 * (y 0).val; omega) (by show 512 + 1 * (y 0).val < 512 + 16 * 32; omega),
    tblV_apply, idxV_apply, emb_hi]
  rfl

omit [FloatOps F] in
/-- The two halves of the result scratch, at whatever they hold, are the scratch at some contents. -/
theorem sR_rejoin (f g : Buf (Elt F) ((V d (cV L) (jV L)).loc cc0_scratch2)) :
    iprop(((rLo).view.loc (V d (cV L) (jV L)) ↦[(rLo).view.set]{fullShare} f) ∗ ((rHi).view.loc (V d (cV L) (jV L)) ↦[(rHi).view.set]{fullShare} g))
      ⊢ (iprop(∃ h, (V d (cV L) (jV L)).loc cc0_scratch2 ↦{fullShare} h) : sProp 𝕄) := by
  have hj : iprop(((V d (cV L) (jV L)).loc cc0_scratch2 ↦[(rLo).view.set]{fullShare} f) ∗ ((V d (cV L) (jV L)).loc cc0_scratch2 ↦[(rHi).view.set]{fullShare} g))
      ⊢ ((V d (cV L) (jV L)).loc cc0_scratch2 ↦[(rLo).view.set ∪ (rHi).view.set]{fullShare} _ : sProp 𝕄) := pointsTo_join rHalves_disjoint
  rw [rHalves_union] at hj
  refine hj.trans ?_
  iintro H; iexists _; iexact H

/-- Before trip `k` of the first loop: the table scratch and the index scratch at their landed contents `g0`, `g1`, the
    result scratch holding the lookup at every position below `16·k`. -/
def inv1 (g0 : Buf (Elt F) ((V d (cV L) (jV L)).loc cc0_scratch0)) (g1 : Buf (Elt F) ((V d (cV L) (jV L)).loc cc0_scratch1))
    (k : Nat) (_ : PUnit) : sProp 𝕄 :=
  iprop(((sT).view.loc (V d (cV L) (jV L)) ↦{fullShare} g0) ∗ ((sI).view.loc (V d (cV L) (jV L)) ↦{fullShare} g1)
    ∗ ∃ f2 : Buf (Elt F) ((V d (cV L) (jV L)).loc cc0_scratch2), ((sR).view.loc (V d (cV L) (jV L)) ↦{fullShare} f2)
      ∗ ⌜∀ p : S1024.Idx, (p 0).val < 16 * k → f2 p = g0 (Cert.Lookup.tblIdx (g1 p))⌝)

omit [FloatOps F] in
/-- The sixteen positions a trip of the second loop touches lie in the upper half of the result scratch. -/
theorem sub_hi (k : Fin k0_t2_loop.trips) :
    ((sR).access (Rect.unit (s := S1024) (k0_off6 k) S16.size (k0_off6_inb k))).set ⊆ (rHi).view.set := by
  intro i hi
  rw [mem_rHi]
  have e : ((sR).access (Rect.unit (s := S1024) (k0_off6 k) S16.size (k0_off6_inb k))).set = (Rect.unit (s := S1024) (k0_off6 k) S16.size (k0_off6_inb k)).set := by
    show ((View.whole (cc0_scratch2 : Ref sig .scVector)).slice _).set = _
    rw [View.set_slice]; exact Finset.map_refl
  have hi' := (Finset.ext_iff.mp e i).mp hi
  have h0 := (Rect.mem_set_unit.mp hi') 0
  rw [k0_off6_eq] at h0
  simp at h0
  omega

/-- Before trip `k` of the second loop: the same two scratches, and the upper half of the result scratch (the lower half is
    being copied out) holding the lookup at every position from 512 to below `512 + 16·k`. -/
def inv2 (g0 : Buf (Elt F) ((V d (cV L) (jV L)).loc cc0_scratch0)) (g1 : Buf (Elt F) ((V d (cV L) (jV L)).loc cc0_scratch1))
    (k : Nat) (_ : PUnit) : sProp 𝕄 :=
  iprop(((sT).view.loc (V d (cV L) (jV L)) ↦{fullShare} g0) ∗ ((sI).view.loc (V d (cV L) (jV L)) ↦{fullShare} g1)
    ∗ ∃ f2 : Buf (Elt F) ((V d (cV L) (jV L)).loc cc0_scratch2), ((rHi).view.loc (V d (cV L) (jV L)) ↦[(rHi).view.set]{fullShare} f2)
      ∗ ⌜∀ p : S1024.Idx, 512 ≤ (p 0).val → (p 0).val < 512 + 16 * k → f2 p = g0 (Cert.Lookup.tblIdx (g1 p))⌝)

/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (tRowPts m d (jL L) ∗ xTok m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__alpha_bar_gather L tW (Memref.isWhole_whole _) xW (Memref.isWhole_whole _) oW (Memref.isWhole_whole _)
            sT (Memref.isWhole_whole _) sI (Memref.isWhole_whole _) sR (Memref.isWhole_whole _) cc0_scratch3 cc0_scratch4 cc0_scratch5)
          fun _ => iprop((tRowPts m d (jL L) ∗ xTok m d (jL L) ∗ oRowPts d (jL L) (outG m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__alpha_bar_gather_eq_skeleton]; unfold cc0__alpha_bar_gather_skel
  rw [(K (F := F)).scopedBufs_V hF d (cV L) (jV L), SparseCore.Cfg.scopedSems0_V (Val := Elt F) d (cV L) (jV L), ownSems0_V, ownBufs_V]
  iintro ⟨#Hlv, -, ⟨Ht, Hx, Ho⟩, ⟨⟨%f0, Hs0⟩, ⟨%f1, Hs1⟩, ⟨%f2, Hs2⟩, Hbufs⟩, ⟨HsemT, HsemI, HsemO, Hsems⟩, HO⟩
  ihave Hmw := ((K (F := F)).mayWaits_none (thr := V d (cV L) (jV L)) hO) $$ Hlv
  ihave Ht' := (Entails.of_eq (pts_tRowK (F := F) d L _).symm) $$ Ht
  ihave Hx' := (Entails.of_eq (pts_xW (F := F) d L _ _).symm) $$ Hx
  ihave Ho2 := (oRow_split (F := F) d L _) $$ Ho
  icases Ho2 with ⟨HoLo, HoHi⟩
  ihave Hs0' := (Entails.of_eq (pts_sT (F := F) d L _).symm) $$ Hs0
  ihave Hs1' := (Entails.of_eq (pts_sI (F := F) d L _).symm) $$ Hs1
  ihave Hs2' := (Entails.of_eq (pts_sR (F := F) d L _).symm) $$ Hs2
  sl_exec
  ihave Hs0n := (Entails.of_eq (landT (F := F) m d L f0 (tile_body.sl.dma0 m d) rfl)) $$ Hs0'
  ihave Hs1n := (Entails.of_eq (landI (F := F) m d L f1 (tile_body.sl.dma0_1 m d L) rfl)) $$ Hs1'
  sl_for (inv1 (F := F) d L (tblV m d L) (idxV m d L)) $$ [Hs0n Hs1n Hs2']
  pick_goal 2
  · unfold inv1
    isplitl [Hs0n]; · iexact Hs0n
    isplitl [Hs1n]; · iexact Hs1n
    iexists _; isplitl [Hs2']; · iexact Hs2'
    ipureintro; intro p hp; omega
  case region =>
    intro k _
    unfold inv1
    iintro ⟨Hs0, Hs1, %g2, Hs2, %hg2⟩
    sl_exec (disch := exact chk1_all _)
    ihave Hs0a := (Entails.of_eq (pts_sT_access (F := F) d L _).symm) $$ Hs0
    iapply (SparseCore.wp_vectorLoadIdx 𝒱₀ (V d (cV L) (jV L)) none Set.univ (base := sT) (S := Finset.univ) (q := fullShare) (Finset.subset_univ _)) $$ Hs0a; iintro Hs0a
    sl_exec
    sl_step
    ihave Hs0 := (Entails.of_eq (pts_sT_access (F := F) d L _)) $$ Hs0a
    isplitl [Hs0]; · iexact Hs0
    isplitl [Hs1]; · iexact Hs1
    iexists _; isplitl [Hs2]; · iexact Hs2
    ipureintro
    intro p hp
    refine trip_fact (F := F) d L _ _ g2 (16 * k.val) (k0_off2 k) (k0_off3 k) (congrFun (k0_off2_eq k) 0) (congrFun (k0_off3_eq k) 0)
      (k0_off2_inb k) (k0_off3_inb k) _ (fun x => ?_) _ 0 (fun q _ hq => hg2 q hq) p (Nat.zero_le _) (by omega)
    exact pay1_apply _ x
  iintro %_ HI
  have htr1 : Scf.trips k0_t1_loop.lb k0_t1_loop.ub k0_t1_loop.st = 32 := by decide
  rw [htr1]
  unfold inv1
  icases HI with ⟨Hs0, Hs1, %g2, Hs2, %hg2⟩
  ihave Hs2s := (sR_split (F := F) d L _) $$ Hs2
  icases Hs2s with ⟨HrLo, HrHi⟩
  have _plan : Transfers.BatchOf (V d (cV L) (jV L)) (SemLoc.dma (sig := sig) cc0_scratch5.sem) 2 := trivial
  sl_exec
  sl_for (inv2 (F := F) d L (tblV m d L) (idxV m d L)) $$ [Hs0 Hs1 HrHi]
  pick_goal 2
  · unfold inv2
    isplitl [Hs0]; · iexact Hs0
    isplitl [Hs1]; · iexact Hs1
    iexists _; isplitl [HrHi]; · iexact HrHi
    ipureintro; intro p h1 h2; omega
  case region =>
    intro k _
    unfold inv2
    iintro ⟨Hs0, Hs1, %g3, HrHi, %hg3⟩
    have hsub := sub_hi k
    sl_exec (disch := exact chk2_all _)
    ihave Hs0a := (Entails.of_eq (pts_sT_access (F := F) d L _).symm) $$ Hs0
    iapply (SparseCore.wp_vectorLoadIdx 𝒱₀ (V d (cV L) (jV L)) none Set.univ (base := sT) (S := Finset.univ) (q := fullShare) (Finset.subset_univ _)) $$ Hs0a; iintro Hs0a
    sl_exec
    sl_step
    ihave Hs0 := (Entails.of_eq (pts_sT_access (F := F) d L _)) $$ Hs0a
    isplitl [Hs0]; · iexact Hs0
    isplitl [Hs1]; · iexact Hs1
    iexists _; isplitl [HrHi]; · iexact HrHi
    ipureintro
    intro p hp1 hp2
    unfold tile_body.sl.HrHi_w1
    refine trip_fact' (F := F) d L _ _ g3 (16 * k.val + 512) (k0_off5 k) (k0_off6 k) (congrFun (k0_off5_eq k) 0) (congrFun (k0_off6_eq k) 0)
      (k0_off5_inb k) (k0_off6_inb k) _ (fun x => ?_) _ 512 (fun q hq1 hq2 => hg3 q hq1 (by omega)) p hp1 (by omega)
    exact pay2_apply _ x
  iintro %_ HI
  have htr2 : Scf.trips k0_t2_loop.lb k0_t2_loop.ub k0_t2_loop.st = 32 := by decide
  rw [htr2]
  unfold inv2
  icases HI with ⟨Hs0, Hs1, %g3, HrHi, %hg3⟩
  sl_exec
  sl_step
  ihave HoLo2 := (Entails.of_eq (pointsTo_congr (landed_lo (F := F) m d L g2 hg2 (tile_body.sl.dma0_2 d L g2) rfl))) $$ HoLo
  ihave HoHi2 := (Entails.of_eq (pointsTo_congr (landed_hi (F := F) m d L g3 hg3 (tile_body.sl.dma0_3 d L g3) rfl))) $$ HoHi
  isplitl [Ht' Hx' HoLo2 HoHi2]
  · isplitl [Ht']; · iapply (Entails.of_eq (pts_tRowK (F := F) d L _)); iexact Ht'
    isplitl [Hx']; · iapply (Entails.of_eq (pts_xW (F := F) d L _ _)); iexact Hx'
    iapply (oRow_join (F := F) d L (outG m d))
    isplitl [HoLo2]; · iexact HoLo2
    iexact HoHi2
  isplitl [Hs0 Hs1 HrLo HrHi Hbufs]
  · isplitl [Hs0]; · iexists _; iexact Hs0
    isplitl [Hs1]; · iexists _; iexact Hs1
    isplitl [HrLo HrHi]
    · iapply (sR_rejoin (F := F) d L g2 g3)
      isplitl [HrLo]; · iexact HrLo
      iexact HrHi
    iexact Hbufs
  isplitl [HsemT HsemI HsemO Hsems]
  · isplitl [HsemT]; · iexact HsemT
    isplitl [HsemI]; · iexact HsemI
    isplitl [HsemO]; · iexact HsemO
    iexact Hsems
  iexists _; isplitr
  pick_goal 2
  · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__alpha_bar_gather (coordsV c s)
          tW (Memref.isWhole_whole _) xW (Memref.isWhole_whole _) oW (Memref.isWhole_whole _)
          sT (Memref.isWhole_whole _) sI (Memref.isWhole_whole _) sR (Memref.isWhole_whole _) cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call meets the launch's obligation: it runs from its block of `t`, its share of the table and
    its block of the result, and hands them back with the block at the lookup. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.KI

end
-- ==== Proof.KI.Launch.lean ====
/-
  The launch of the idealized kernel's one SparseCore call: how the call's three arrays split among the sixteen tasks
  and how the tasks' results make up the call's — block `i` of `t` and of the result to task `i`, the table as sixteen
  read shares beside a remainder that waits for them —, what @main does on the TensorCore (the call, nothing else), and
  what the final memory then holds: `t` and the table as launched, the result at the lookup. The run of the whole
  family of threads follows from one task's proof.
-/
import proofs.«204889_g41197326303608_cont_8to1_b_1968_17_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The arrays by blocks -/

omit [FloatOps F] in
theorem rowSet_eq' (i : Fin 16) : rowSet i = (row i).set := by
  show ((View.whole (main_arg0_scv : Ref sig .scVector)).slice (row i)).set = _
  rw [View.set_slice]; exact Finset.map_refl
omit [FloatOps F] in
theorem rows_disjoint : ∀ i ∈ (Finset.univ : Finset (Fin 16)), ∀ j ∈ (Finset.univ : Finset (Fin 16)), i ≠ j → Disjoint (rowSet i) (rowSet j) :=
  fun i _ j _ h => by rw [rowSet_eq', rowSet_eq']; exact Rect.part_disjoint hdiv h
omit [FloatOps F] in
theorem rows_cover : (Finset.univ : Finset (Fin 16)).biUnion rowSet = Finset.univ :=
  (Finset.biUnion_congr rfl fun i _ => rowSet_eq' i).trans (Rect.biUnion_part hdiv)

omit [FloatOps F] in
theorem tPts_rows (d : Dev nD) (f : Buf (Elt F) (tLoc d)) :
    (tLoc d ↦{fullShare} f : sProp 𝕄) = bigSep Finset.univ fun i : Fin 16 => tLoc d ↦[rowSet i]{fullShare} f := by
  rw [← pointsTo_biUnion Finset.univ (ℓ := tLoc d) rowSet rows_disjoint, rows_cover]; try rfl
omit [FloatOps F] in
theorem oPts_rows (d : Dev nD) (f : Buf (Elt F) (oLoc d)) :
    (oLoc d ↦{fullShare} f : sProp 𝕄) = bigSep Finset.univ fun i : Fin 16 => oLoc d ↦[rowSet i]{fullShare} f := by
  rw [← pointsTo_biUnion Finset.univ (ℓ := oLoc d) rowSet rows_disjoint, rows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(tPts m d ∗ xPts m d ∗ oPts d (m (oLoc d))) ⊢ |={Set.univ}=> iprop(
      (bigSep Finset.univ fun i : Fin ((K (F := F)).nSub 0) =>
        iprop(tRowPts m d (Fin.cast nSub_zero i) ∗ xTok m d (Fin.cast nSub_zero i) ∗ oRowPts d (Fin.cast nSub_zero i) (m (oLoc d))))
      ∗ ((bigSep Finset.univ fun i : Fin ((K (F := F)).nSub 0) =>
          iprop(tRowPts m d (Fin.cast nSub_zero i) ∗ xTok m d (Fin.cast nSub_zero i) ∗ oRowPts d (Fin.cast nSub_zero i) (outG m d)))
          -∗ iprop(tPts m d ∗ xPts m d ∗ oPts d (outG m d))))
  rw [bigSep_tasks (F := F) (fun i => iprop(tRowPts m d i ∗ xTok m d i ∗ oRowPts d i (m (oLoc d)))),
    bigSep_tasks (F := F) (fun i => iprop(tRowPts m d i ∗ xTok m d i ∗ oRowPts d i (outG m d))), bigSep_sep', bigSep_sep', bigSep_sep', bigSep_sep']
  unfold tPts oPts tRowPts oRowPts
  rw [tPts_rows, oPts_rows, oPts_rows]
  iintro ⟨Ht, Hx, Ho⟩
  ihave Hx2 := (Transfers.pointsTo_toks_split fullShare 16) $$ Hx
  icases Hx2 with ⟨Hrem, Htoks⟩
  imodintro
  isplitl [Ht Htoks Ho]
  · isplitl [Ht]; · iexact Ht
    isplitl [Htoks]; · iexact Htoks
    iexact Ho
  iintro ⟨Ht, Htoks, Ho⟩
  isplitl [Ht]; · iexact Ht
  isplitl [Hrem Htoks]
  · iapply (Transfers.pointsTo_toks_join fullShare 16)
    isplitl [Hrem]; · iexact Hrem
    iexact Htoks
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(tPts m d ∗ xPts m d ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ xPts m d ∗ oPts d (outG m d)) :=
  bigSep_univ_of_subsingleton (0 : Fin 1)

/-- What @main leaves the claim: the three arrays, the result at the lookup. -/
abbrev FIN (d : Dev nD) : sProp 𝕄 := iprop(tPts m d ∗ xPts m d ∗ oPts d (outG m d))

/-- @main on device `d`'s TensorCore: the one call, from the three arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Hx, Ho⟩, -, -⟩, -⟩
  iapply ((K (F := F)).wp_run (D (F := F)) 𝒱 (EH := EH) (P := P m) κ d 0) $$ [Hst Ht Hx Ho]
  isplitr; · iexact Hctx
  isplitl [Hst]; · iexact Hst
  isplitl [Ht Hx Ho]
  · rw [st0_eq]
    isplitl [Ht]; · iexact Ht
    isplitl [Hx]; · iexact Hx
    iexact Ho
  iintro ⟨Hst, Hdn⟩
  ihave Hdn' := (Entails.of_eq (dn0_eq m d)) $$ Hdn
  icases Hdn' with ⟨Ht, Hx, Ho⟩
  imodintro
  isplitl [Hst]; · iexact Hst
  isplitl [Ht]; · iexact Ht
  isplitl [Hx]; · iexact Hx
  iexact Ho

def fq (d : Dev nD) (s' : Phys nD τ sig (Elt F)) : Prop :=
  s'.mem.mem (oLoc d) = outG m d ∧ s'.mem.mem (tLoc d) = m (tLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Ht, Hx, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := outG m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with the result at the lookup of the launch contents and the two arguments unchanged. -/
def QC : PUnit × MemSt nD τ sig (Elt F) → Prop := fun r =>
  ∀ c : Dev nD, r.2.mem (oLoc c) = outG m c ∧ r.2.mem (tLoc c) = m (tLoc c) ∧ r.2.mem (xLoc c) = m (xLoc c)

theorem run_of_tile [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KI.Run.lean ====
/-
  The run of the idealized kernel: one task's proof (`tileObl`) under the launch of the call (`run_of_tile`). Every
  weakly fair execution of the device's threads — the TensorCore, the sequencers, the vector subcores — ends, nothing
  faulting, with the result array at the lookup of the launch contents and the two arguments unchanged.
-/
import proofs.«204889_g41197326303608_cont_8to1_b_1968_17_alg».proof.Proof.KI.Body
import proofs.«204889_g41197326303608_cont_8to1_b_1968_17_alg».proof.Proof.KI.Launch

noncomputable section

namespace Cert.Proof.KI

open Idealize.ShloMosaic Idealize.SL.Sem

theorem run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (QC m) :=
  run_of_tile m ρ (tileObl m facts)

end Cert.Proof.KI

end
-- ==== Proof.KB.Common.lean ====
/-
  The kernel as the launch of a SparseCore call sees it, and what the call's handshakes carry.
  The kernel is one vector-subcore call on one SparseCore: sixteen tasks, task `i` working on positions
  `[1024·i, 1024·i + 1024)` of the index array `t` and of the result `out`, every task reading the whole table.
  So the call takes `t`, the table and `out` whole; task `i` is handed block `i` of `t` and of `out` outright and one
  read share of the table (the sixteen shares, with a remainder that stays behind, make up the whole); it hands back
  the same, block `i` of `out` now holding the lookup `look t tbl` at its positions; the blocks put together are
  `out` whole at `look t tbl`.
-/
import proofs.«204889_g41197326303608_cont_8to1_b_1968_17_alg».proof.Kernel
import proofs.«204889_g41197326303608_cont_8to1_b_1968_17_alg».proof.Proof.Gen.Kernel
import proofs.«204889_g41197326303608_cont_8to1_b_1968_17_alg».proof.Proof.Gen.Kernel.Skeleton
import proofs.«204889_g41197326303608_cont_8to1_b_1968_17_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array `t`, the table and the result, as locations of device `d`. -/
abbrev tLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- What the result array holds in the end: the lookup of the launch contents. -/
def outG (d : Dev nD) : Buf (Elt F) (oLoc d) := Cert.Lookup.look (m (tLoc d)) (m (xLoc d))

theorem outG_apply (d : Dev nD) (j : S16384.Idx) : outG m d j = m (xLoc d) (Cert.Lookup.tblIdx (m (tLoc d) j)) := rfl

/-- The sixteen blocks of 1024 positions. -/
theorem hdiv : 16 ∣ S16384.size 0 := ⟨1024, rfl⟩
abbrev row (i : Fin 16) : Rect S16384 := Rect.part (s := S16384) (a₀ := 0) hdiv i
abbrev rowSet (i : Fin 16) : Finset S16384.Idx :=
  ((Memref.whole main_arg0_scv : Memref sig .scVector .hbm S16384 .i32).view.slice (row i)).set

abbrev tPts (d : Dev nD) : sProp 𝕄 := tLoc d ↦{fullShare} m (tLoc d)
abbrev xPts (d : Dev nD) : sProp 𝕄 := xLoc d ↦{fullShare} m (xLoc d)
abbrev oPts (d : Dev nD) (f : Buf (Elt F) (oLoc d)) : sProp 𝕄 := oLoc d ↦{fullShare} f
abbrev tRowPts (d : Dev nD) (i : Fin 16) : sProp 𝕄 := tLoc d ↦[rowSet i]{fullShare} m (tLoc d)
/-- Task `i`'s read share of the table. -/
abbrev xTok (d : Dev nD) (i : Fin 16) : sProp 𝕄 := xLoc d ↦{Transfers.shareTok fullShare 16 i} m (xLoc d)
abbrev oRowPts (d : Dev nD) (i : Fin 16) (f : Buf (Elt F) (oLoc d)) : sProp 𝕄 := oLoc d ↦[rowSet i]{fullShare} f

/-- The one call takes the three arrays whole and brings them back, the result at the lookup; task `i` takes block
    `i` of `t` and of the result and its share of the table, and brings them back, its block of the result at the lookup. -/
def P : (K (F := F)).Pay (nD := nD) (Val := Elt F) (Name := ℕ) (U := UU) where
  st := fun q d _ => match q with | 0 => iprop(tPts m d ∗ xPts m d ∗ oPts d (m (oLoc d)))
  dn := fun q d _ => match q with | 0 => iprop(tPts m d ∗ xPts m d ∗ oPts d (outG m d))
  go := fun q d _ i => match q with
    | 0 => iprop(tRowPts m d (Fin.cast nSub_zero i) ∗ xTok m d (Fin.cast nSub_zero i) ∗ oRowPts d (Fin.cast nSub_zero i) (m (oLoc d)))
  td := fun q d _ i => match q with
    | 0 => iprop(tRowPts m d (Fin.cast nSub_zero i) ∗ xTok m d (Fin.cast nSub_zero i) ∗ oRowPts d (Fin.cast nSub_zero i) (outG m d))
  x := fun _ _ => iprop(emp)

instance P_storable : (P (F := F) m).IsStorable where
  st q d _ := match q with
    | 0 => (inferInstance : BI.Storable (upEmb : UEmb _ 𝕄) iprop(tPts m d ∗ xPts m d ∗ oPts d (m (oLoc d))))
  dn q d _ := match q with
    | 0 => (inferInstance : BI.Storable (upEmb : UEmb _ 𝕄) iprop(tPts m d ∗ xPts m d ∗ oPts d (outG m d)))
  go q d _ i := match q with
    | 0 => (inferInstance : BI.Storable (upEmb : UEmb _ 𝕄)
        iprop(tRowPts m d (Fin.cast nSub_zero i) ∗ xTok m d (Fin.cast nSub_zero i) ∗ oRowPts d (Fin.cast nSub_zero i) (m (oLoc d))))
  td q d _ i := match q with
    | 0 => (inferInstance : BI.Storable (upEmb : UEmb _ 𝕄)
        iprop(tRowPts m d (Fin.cast nSub_zero i) ∗ xTok m d (Fin.cast nSub_zero i) ∗ oRowPts d (Fin.cast nSub_zero i) (outG m d)))

end Cert.Proof.KB

end
-- ==== Proof.KB.Body.lean ====
/-
  One task of the kernel, on vector subcore `(L 0, L 1)`: it copies the whole table and its own block of
  1024 indices into its scratch memory and waits for both copies; in two loops of 32 trips, trip `k` reads sixteen
  indices, clamps each to `[0, 999]`, reads the table's entries they name and writes them at the same sixteen
  positions of the result scratch (the first loop fills positions `[0, 512)`, the second `[512, 1024)`); the first
  half is copied out to the task's block of the result while the second loop runs — the copy reads positions the
  second loop never touches —, then the second half, and both copies are waited for. So position `p` of the block ends
  holding the table's entry at the clamped `p`-th index of the block: the lookup.
-/
import proofs.«204889_g41197326303608_cont_8to1_b_1968_17_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "tW" => (Memref.whole Cert.Kernel.main_arg0_scv : Memref Cert.Kernel.sig Kind.scVector Space.hbm Cert.Kernel.S16384 EltTy.i32)
local notation "xW" => (Memref.whole Cert.Kernel.main_arg1_scv : Memref Cert.Kernel.sig Kind.scVector Space.hbm Cert.Kernel.S1001 EltTy.f32)
local notation "oW" => (Memref.whole Cert.Kernel.main_v0_scv : Memref Cert.Kernel.sig Kind.scVector Space.hbm Cert.Kernel.S16384 EltTy.f32)
local notation "sT" => (Memref.whole Cert.Kernel.cc0_scratch0 : Memref Cert.Kernel.sig Kind.scVector Space.vmem Cert.Kernel.S1001 EltTy.f32)
local notation "sI" => (Memref.whole Cert.Kernel.cc0_scratch1 : Memref Cert.Kernel.sig Kind.scVector Space.vmem Cert.Kernel.S1024 EltTy.i32)
local notation "sR" => (Memref.whole Cert.Kernel.cc0_scratch2 : Memref Cert.Kernel.sig Kind.scVector Space.vmem Cert.Kernel.S1024 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The task's block of `t`, the two halves of its block of the result, the two halves of the result scratch, as the
    program slices them. -/
abbrev tRowK (L : grid0.Coords) : Memref sig .scVector .hbm S1024 .i32 :=
  (tW).slice (Rect.unit (s := S16384) (k0_off1 L) S1024.size (k0_off1_inb L)) (fun _ => rfl)
abbrev oLoK (L : grid0.Coords) : Memref sig .scVector .hbm S512 .f32 :=
  (oW).slice (Rect.unit (s := S16384) (k0_off4 L) S512.size (k0_off4_inb L)) (fun _ => rfl)
abbrev oHiK (L : grid0.Coords) : Memref sig .scVector .hbm S512 .f32 :=
  (oW).slice (Rect.unit (s := S16384) (k0_off7 L) S512.size (k0_off7_inb L)) (fun _ => rfl)
abbrev rLo : Memref sig .scVector .vmem S512 .f32 :=
  (sR).slice (Rect.unit (s := S1024) ![0] S512.size inb_S1024_S512_0) (fun _ => rfl)
abbrev rHi : Memref sig .scVector .vmem S512 .f32 :=
  (sR).slice (Rect.unit (s := S1024) ![512] S512.size inb_S1024_S512_512) (fun _ => rfl)

/-! ### The task's own semaphores and scratch buffers -/

abbrev cTcell (d : Dev nD) (c : Fin τ.nSC) (i : Fin τ.nSub) : GSem nD τ sig := (V d c i, .dma cc0_scratch3.sem)
abbrev cIcell (d : Dev nD) (c : Fin τ.nSC) (i : Fin τ.nSub) : GSem nD τ sig := (V d c i, .dma cc0_scratch4.sem)
abbrev cOcell (d : Dev nD) (c : Fin τ.nSC) (i : Fin τ.nSub) : GSem nD τ sig := (V d c i, .dma cc0_scratch5.sem)

omit [FloatOps F] in
theorem ownSems0_V :
    (ownSems0 (V d (cV L) (jV L)) : sProp 𝕄)
      = iprop(semVal (cTcell d (cV L) (jV L)) 0 ∗ semVal (cIcell d (cV L) (jV L)) 0 ∗ semVal (cOcell d (cV L) (jV L)) 0
          ∗ bigSep ((((ownCells (V d (cV L) (jV L))).erase (cTcell d (cV L) (jV L))).erase (cIcell d (cV L) (jV L))).erase (cOcell d (cV L) (jV L)))
              fun g => semVal g 0) := by
  unfold SparseCore.Cfg.ownSems0
  rw [SparseCore.bigSep_erase' ((mem_ownCells (g := cTcell d (cV L) (jV L))).mpr ⟨rfl, by
      show (SemLoc.dma cc0_scratch3.sem : SemLoc sig).isScoped .scVector = true; decide⟩),
    SparseCore.bigSep_erase' (Finset.mem_erase.mpr ⟨by simp [cTcell, cIcell]; decide, (mem_ownCells (g := cIcell d (cV L) (jV L))).mpr ⟨rfl, by
      show (SemLoc.dma cc0_scratch4.sem : SemLoc sig).isScoped .scVector = true; decide⟩⟩),
    SparseCore.bigSep_erase' (Finset.mem_erase.mpr ⟨by simp [cIcell, cOcell]; decide, Finset.mem_erase.mpr ⟨by simp [cTcell, cOcell]; decide,
      (mem_ownCells (g := cOcell d (cV L) (jV L))).mpr ⟨rfl, by show (SemLoc.dma cc0_scratch5.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ### The blocks as the launch names them and as the program slices them -/

omit [FloatOps F] in
/-- The task's block of `t` is block `L 1` of the sixteen. -/
theorem tRect_eq : Rect.unit (s := S16384) (k0_off1 L) S1024.size (k0_off1_inb L) = row (jL L) := by
  unfold row Rect.part Rect.block
  congr 1 <;> funext a
  · rw [k0_off1_eq]
    match a with
    | 0 => simp [Shape.partIx, Shape.partSize]; omega
  · match a with
    | 0 => simp [Shape.partSize]

omit [FloatOps F] in
theorem set_tRowK : (tRowK L).view.set = rowSet (jL L) := by
  show ((tW).view.slice (Rect.unit (s := S16384) (k0_off1 L) S1024.size (k0_off1_inb L))).set = ((tW).view.slice (row (jL L))).set
  rw [tRect_eq]

omit [FloatOps F] in
theorem pts_tRowK (f : Buf (Elt F) (tLoc d)) :
    ((tRowK L).view.loc (V d (cV L) (jV L)) ↦[(tRowK L).view.set]{fullShare} f : sProp 𝕄) = tLoc d ↦[rowSet (jL L)]{fullShare} f := by
  rw [set_tRowK]

omit [FloatOps F] in
theorem pts_xW (q : PosShare TreeShare) (f : Buf (Elt F) (xLoc d)) :
    ((xW).view.loc (V d (cV L) (jV L)) ↦{q} f : sProp 𝕄) = xLoc d ↦{q} f := rfl

omit [FloatOps F] in
theorem rowSet_eq (i : Fin 16) : rowSet i = (row i).set := by
  show ((View.whole (main_arg0_scv : Ref sig .scVector)).slice (row i)).set = _
  rw [View.set_slice]; exact Finset.map_refl

omit [FloatOps F] in
/-- Block `L 1` holds the positions `[1024·(L 1), 1024·(L 1) + 1024)`. -/
theorem mem_rowSet (j : S16384.Idx) : j ∈ rowSet (jL L) ↔ 1024 * (L 1).val ≤ (j 0).val ∧ (j 0).val < 1024 * (L 1).val + 1024 := by
  have h0 : (L 0).val < 1 := (L 0).isLt
  rw [rowSet_eq, ← tRect_eq, Rect.mem_set_unit, k0_off1_eq]
  constructor
  · intro h; have := h 0; simp at this; omega
  · intro h a; obtain rfl : a = 0 := Subsingleton.elim _ _; simp; omega

omit [FloatOps F] in
theorem mem_oLo (j : S16384.Idx) : j ∈ (oLoK L).view.set ↔ 1024 * (L 1).val ≤ (j 0).val ∧ (j 0).val < 1024 * (L 1).val + 512 := by
  have h0 : (L 0).val < 1 := (L 0).isLt
  have e : (oLoK L).view.set = (Rect.unit (s := S16384) (k0_off4 L) S512.size (k0_off4_inb L)).set := by
    show ((View.whole (main_v0_scv : Ref sig .scVector)).slice _).set = _
    rw [View.set_slice]; exact Finset.map_refl
  refine (Finset.ext_iff.mp e j).trans ?_
  rw [Rect.mem_set_unit, k0_off4_eq]
  constructor
  · intro h; have := h 0; simp at this; omega
  · intro h a; obtain rfl : a = 0 := Subsingleton.elim _ _; simp; omega

omit [FloatOps F] in
theorem mem_oHi (j : S16384.Idx) : j ∈ (oHiK L).view.set ↔ 1024 * (L 1).val + 512 ≤ (j 0).val ∧ (j 0).val < 1024 * (L 1).val + 1024 := by
  have h0 : (L 0).val < 1 := (L 0).isLt
  have e : (oHiK L).view.set = (Rect.unit (s := S16384) (k0_off7 L) S512.size (k0_off7_inb L)).set := by
    show ((View.whole (main_v0_scv : Ref sig .scVector)).slice _).set = _
    rw [View.set_slice]; exact Finset.map_refl
  refine (Finset.ext_iff.mp e j).trans ?_
  rw [Rect.mem_set_unit, k0_off7_eq]
  constructor
  · intro h; have := h 0; simp at this; omega
  · intro h a; obtain rfl : a = 0 := Subsingleton.elim _ _; simp; omega

omit [FloatOps F] in
/-- The two halves of the task's block of the result are disjoint and make up the block. -/
theorem oHalves_disjoint : Disjoint (oLoK L).view.set (oHiK L).view.set :=
  Finset.disjoint_left.mpr fun j h1 h2 => by rw [mem_oLo] at h1; rw [mem_oHi] at h2; omega
omit [FloatOps F] in
theorem oHalves_union : (oLoK L).view.set ∪ (oHiK L).view.set = rowSet (jL L) := by
  ext j; rw [Finset.mem_union, mem_oLo, mem_oHi, mem_rowSet]; omega

omit [FloatOps F] in
theorem mem_rLo (j : S1024.Idx) : j ∈ (rLo).view.set ↔ (j 0).val < 512 := by
  have e : (rLo).view.set = (Rect.unit (s := S1024) ![0] S512.size inb_S1024_S512_0).set := by
    show ((View.whole (cc0_scratch2 : Ref sig .scVector)).slice _).set = _
    rw [View.set_slice]; exact Finset.map_refl
  refine (Finset.ext_iff.mp e j).trans ?_
  rw [Rect.mem_set_unit]
  constructor
  · intro h; have := h 0; simp at this; omega
  · intro h a; obtain rfl : a = 0 := Subsingleton.elim _ _; simp; omega
omit [FloatOps F] in
theorem mem_rHi (j : S1024.Idx) : j ∈ (rHi).view.set ↔ 512 ≤ (j 0).val := by
  have hj : (j 0).val < 1024 := (j 0).isLt
  have e : (rHi).view.set = (Rect.unit (s := S1024) ![512] S512.size inb_S1024_S512_512).set := by
    show ((View.whole (cc0_scratch2 : Ref sig .scVector)).slice _).set = _
    rw [View.set_slice]; exact Finset.map_refl
  refine (Finset.ext_iff.mp e j).trans ?_
  rw [Rect.mem_set_unit]
  constructor
  · intro h; have := h 0; simp at this; omega
  · intro h a; obtain rfl : a = 0 := Subsingleton.elim _ _; simp; omega
omit [FloatOps F] in
theorem rHalves_disjoint : Disjoint (rLo).view.set (rHi).view.set :=
  Finset.disjoint_left.mpr fun j h1 h2 => by rw [mem_rLo] at h1; rw [mem_rHi] at h2; omega
omit [FloatOps F] in
theorem rHalves_union : (rLo).view.set ∪ (rHi).view.set = (Finset.univ : Finset S1024.Idx) := by
  ext j; rw [Finset.mem_union, mem_rLo, mem_rHi]; simp; omega

omit [FloatOps F] in
theorem pts_oLoK (f : Buf (Elt F) (oLoc d)) :
    ((oLoK L).view.loc (V d (cV L) (jV L)) ↦[(oLoK L).view.set]{fullShare} f : sProp 𝕄) = oLoc d ↦[(oLoK L).view.set]{fullShare} f := rfl
omit [FloatOps F] in
theorem pts_oHiK (f : Buf (Elt F) (oLoc d)) :
    ((oHiK L).view.loc (V d (cV L) (jV L)) ↦[(oHiK L).view.set]{fullShare} f : sProp 𝕄) = oLoc d ↦[(oHiK L).view.set]{fullShare} f := rfl
omit [FloatOps F] in
theorem pts_sT (f : Buf (Elt F) ((V d (cV L) (jV L)).loc cc0_scratch0)) :
    ((sT).view.loc (V d (cV L) (jV L)) ↦{fullShare} f : sProp 𝕄) = (V d (cV L) (jV L)).loc cc0_scratch0 ↦{fullShare} f := rfl
omit [FloatOps F] in
theorem pts_sI (f : Buf (Elt F) ((V d (cV L) (jV L)).loc cc0_scratch1)) :
    ((sI).view.loc (V d (cV L) (jV L)) ↦{fullShare} f : sProp 𝕄) = (V d (cV L) (jV L)).loc cc0_scratch1 ↦{fullShare} f := rfl
omit [FloatOps F] in
theorem pts_sR (f : Buf (Elt F) ((V d (cV L) (jV L)).loc cc0_scratch2)) :
    ((sR).view.loc (V d (cV L) (jV L)) ↦{fullShare} f : sProp 𝕄) = (V d (cV L) (jV L)).loc cc0_scratch2 ↦{fullShare} f := rfl

omit [FloatOps F] in
/-- The task's block of the result is its two halves. -/
theorem oRow_halves (f : Buf (Elt F) (oLoc d)) :
    (oLoc d ↦[rowSet (jL L)]{fullShare} f : sProp 𝕄)
      ⊣⊢ iprop(((oLoK L).view.loc (V d (cV L) (jV L)) ↦[(oLoK L).view.set]{fullShare} f) ∗ ((oHiK L).view.loc (V d (cV L) (jV L)) ↦[(oHiK L).view.set]{fullShare} f)) := by
  rw [← oHalves_union L]; exact pointsTo_union (oHalves_disjoint L)

omit [FloatOps F] in
/-- The result scratch is its two halves. -/
theorem sR_halves (f : Buf (Elt F) ((V d (cV L) (jV L)).loc cc0_scratch2)) :
    ((sR).view.loc (V d (cV L) (jV L)) ↦{fullShare} f : sProp 𝕄)
      ⊣⊢ iprop(((rLo).view.loc (V d (cV L) (jV L)) ↦[(rLo).view.set]{fullShare} f) ∗ ((rHi).view.loc (V d (cV L) (jV L)) ↦[(rHi).view.set]{fullShare} f)) := by
  show ((V d (cV L) (jV L)).loc cc0_scratch2 ↦[Finset.univ]{fullShare} f : sProp 𝕄) ⊣⊢ _
  rw [← rHalves_union]; exact pointsTo_union rHalves_disjoint

omit [FloatOps F] in
theorem oRow_split (f : Buf (Elt F) (oLoc d)) :
    (oLoc d ↦[rowSet (jL L)]{fullShare} f : sProp 𝕄)
      ⊢ iprop(((oLoK L).view.loc (V d (cV L) (jV L)) ↦[(oLoK L).view.set]{fullShare} f) ∗ ((oHiK L).view.loc (V d (cV L) (jV L)) ↦[(oHiK L).view.set]{fullShare} f)) :=
  (oRow_halves d L f).1
omit [FloatOps F] in
theorem oRow_join (f : Buf (Elt F) (oLoc d)) :
    iprop(((oLoK L).view.loc (V d (cV L) (jV L)) ↦[(oLoK L).view.set]{fullShare} f) ∗ ((oHiK L).view.loc (V d (cV L) (jV L)) ↦[(oHiK L).view.set]{fullShare} f))
      ⊢ (oLoc d ↦[rowSet (jL L)]{fullShare} f : sProp 𝕄) :=
  (oRow_halves d L f).2
omit [FloatOps F] in
theorem sR_split (f : Buf (Elt F) ((V d (cV L) (jV L)).loc cc0_scratch2)) :
    ((sR).view.loc (V d (cV L) (jV L)) ↦{fullShare} f : sProp 𝕄)
      ⊢ iprop(((rLo).view.loc (V d (cV L) (jV L)) ↦[(rLo).view.set]{fullShare} f) ∗ ((rHi).view.loc (V d (cV L) (jV L)) ↦[(rHi).view.set]{fullShare} f)) :=
  (sR_halves d L f).1
omit [FloatOps F] in
theorem sR_join (f : Buf (Elt F) ((V d (cV L) (jV L)).loc cc0_scratch2)) :
    iprop(((rLo).view.loc (V d (cV L) (jV L)) ↦[(rLo).view.set]{fullShare} f) ∗ ((rHi).view.loc (V d (cV L) (jV L)) ↦[(rHi).view.set]{fullShare} f))
      ⊢ ((sR).view.loc (V d (cV L) (jV L)) ↦{fullShare} f : sProp 𝕄) :=
  (sR_halves d L f).2

/-! ### The arithmetic of a trip -/

omit [FloatOps F] in
/-- The index a trip computes from a loaded word is the word clamped to `[0, 999]` (both loops). -/
theorem pay1_apply (v30 : Vec F S16 .i32) (x : S16.Idx) : k0_pay1 (F := F) v30 x = Cert.Lookup.clampW (v30 x) := rfl
omit [FloatOps F] in
theorem pay2_apply (v30 : Vec F S16 .i32) (x : S16.Idx) : k0_pay2 (F := F) v30 x = Cert.Lookup.clampW (v30 x) := rfl

omit [FloatOps F] in
/-- The clamped words name entries of the table, whatever was loaded: the body's check always passes. -/
theorem chk1_all (v30 : Vec F S16 .i32) : k0_chk1 (k0_pay1 (F := F) v30) := by
  intro a x
  obtain rfl : a = 0 := Subsingleton.elim _ _
  show (k0_pay1 (F := F) v30 x).toNat < 1001
  rw [pay1_apply]; exact Cert.Lookup.clampW_lt _
omit [FloatOps F] in
theorem chk2_all (v30 : Vec F S16 .i32) : k0_chk2 (k0_pay2 (F := F) v30) := by
  intro a x
  obtain rfl : a = 0 := Subsingleton.elim _ _
  show (k0_pay2 (F := F) v30 x).toNat < 1001
  rw [pay2_apply]; exact Cert.Lookup.clampW_lt _

omit [FloatOps F] in
/-- The table entry the indexed load reads for lane `x` is the one the clamped word names. -/
theorem idxAt_pay1 (v30 : Vec F S16 .i32) (h : ∀ a x, ((![k0_pay1 (F := F) v30] : Fin 1 → IVec S16 32) a x).toNat < S1001.size a) (x : S16.Idx) :
    idxAt (s := S1001) ![k0_pay1 (F := F) v30] h x = Cert.Lookup.tblIdx (v30 x) := by
  funext a; apply Fin.ext
  obtain rfl : a = 0 := Subsingleton.elim _ _
  rfl
omit [FloatOps F] in
theorem idxAt_pay2 (v30 : Vec F S16 .i32) (h : ∀ a x, ((![k0_pay2 (F := F) v30] : Fin 1 → IVec S16 32) a x).toNat < S1001.size a) (x : S16.Idx) :
    idxAt (s := S1001) ![k0_pay2 (F := F) v30] h x = Cert.Lookup.tblIdx (v30 x) := by
  funext a; apply Fin.ext
  obtain rfl : a = 0 := Subsingleton.elim _ _
  rfl

omit [FloatOps F] in
theorem pts_sT_access (f : Buf (Elt F) ((V d (cV L) (jV L)).loc cc0_scratch0)) :
    (((sT).access (.whole S1001)).loc (V d (cV L) (jV L)) ↦{fullShare} f : sProp 𝕄) = ((sT).view.loc (V d (cV L) (jV L)) ↦{fullShare} f) := rfl

omit [FloatOps F] in
/-- One store of sixteen entries through the result scratch: at a position inside the sixteen the new value, -/
theorem store_in (g2 : Buf (Elt F) ((V d (cV L) (jV L)).loc cc0_scratch2)) (off : Fin 1 → Nat) (inb : ∀ a, off a + S16.size a ≤ S1024.size a)
    (w : S16.Idx → Elt F .f32) (p : S1024.Idx) (x : S16.Idx) (hpx : (p 0).val = off 0 + (x 0).val) :
    (sR).view.writes (Elt F) g2 [⟨Rect.unit (s := S1024) off S16.size inb, w⟩] p = w x := by
  have hp : p = ((sR).view.slice (Rect.unit (s := S1024) off S16.size inb)).emb x := by
    funext a; apply Fin.ext
    obtain rfl : a = 0 := Subsingleton.elim _ _
    show (p 0).val = off 0 + 1 * (x 0).val
    omega
  rw [View.writes_singleton, hp]
  exact (View.write_emb_of_mem _ _ (Finset.mem_univ x)).trans (cast_eq _ _)

omit [FloatOps F] in
/-- elsewhere the old one. -/
theorem store_out (g2 : Buf (Elt F) ((V d (cV L) (jV L)).loc cc0_scratch2)) (off : Fin 1 → Nat) (inb : ∀ a, off a + S16.size a ≤ S1024.size a)
    (w : S16.Idx → Elt F .f32) (p : S1024.Idx) (hout : ¬ (off 0 ≤ (p 0).val ∧ (p 0).val < off 0 + 16)) :
    (sR).view.writes (Elt F) g2 [⟨Rect.unit (s := S1024) off S16.size inb, w⟩] p = g2 p := by
  rw [View.writes_singleton]
  refine View.write_of_not_mem _ _ _ ?_
  intro hmem
  have e : ((sR).view.slice (Rect.unit (s := S1024) off S16.size inb)).set = (Rect.unit (s := S1024) off S16.size inb).set := by
    show ((View.whole (cc0_scratch2 : Ref sig .scVector)).slice _).set = _
    rw [View.set_slice]; exact Finset.map_refl
  have hmem' : p ∈ (Rect.unit (s := S1024) off S16.size inb).set := (Finset.ext_iff.mp e p).mp hmem
  have h0 := (Rect.mem_set_unit.mp hmem') 0
  apply hout
  simpa using h0

omit [FloatOps F] in
/-- A trip's effect on the result scratch. The sixteen positions from `o` on take the table's entries at the clamped
    index words of those positions; positions below `o` (from `lo` on) that held the lookup still do. -/
theorem trip_fact (G0 : Buf (Elt F) ((V d (cV L) (jV L)).loc cc0_scratch0)) (G1 : Buf (Elt F) ((V d (cV L) (jV L)).loc cc0_scratch1))
    (g2 : Buf (Elt F) ((V d (cV L) (jV L)).loc cc0_scratch2)) (o : Nat)
    (offL offS : Fin 1 → Nat) (hL : offL 0 = o) (hS : offS 0 = o)
    (inbL : ∀ a, offL a + S16.size a ≤ S1024.size a) (inbS : ∀ a, offS a + S16.size a ≤ S1024.size a)
    (pay : IVec S16 32)
    (hpay : ∀ x, pay x = Cert.Lookup.clampW ((sI).view.readAt (Elt F) (Rect.unit (s := S1024) offL S16.size inbL).toLoadRect G1 x))
    (h : ∀ a x, ((![pay] : Fin 1 → IVec S16 32) a x).toNat < S1001.size a)
    (lo : Nat) (hprev : ∀ p : S1024.Idx, lo ≤ (p 0).val → (p 0).val < o → g2 p = G0 (Cert.Lookup.tblIdx (G1 p)))
    (p : S1024.Idx) (hlo : lo ≤ (p 0).val) (hhi : (p 0).val < o + 16) :
    (sR).view.writes (Elt F) g2 [⟨Rect.unit (s := S1024) offS S16.size inbS,
        loadIdx (View.read (Elt F) ((sT).access (Rect.whole S1001)) G0) ![pay] h⟩] p = G0 (Cert.Lookup.tblIdx (G1 p)) := by
  by_cases hin : o ≤ (p 0).val
  · have hx : (p 0).val - o < 16 := by omega
    have hx' : ∀ a : Fin 1, (p 0).val - o < S16.size a := fun a => by obtain rfl : a = 0 := Subsingleton.elim _ _; exact hx
    rw [store_in d L g2 offS inbS _ p (fun a => ⟨(p 0).val - o, hx' a⟩) (by show (p 0).val = offS 0 + ((p 0).val - o); omega)]
    have hr : View.read (Elt F) ((sT).access (Rect.whole S1001)) G0 = G0 :=
      Memref.read_access_whole (Elt F) (cc0_scratch0 : Ref sig .scVector) G0
    rw [hr]
    have hidx : (Rect.unit (s := S1024) offL S16.size inbL).toLoadRect.idx (fun a => ⟨(p 0).val - o, hx' a⟩) = p := by
      funext a; apply Fin.ext
      obtain rfl : a = 0 := Subsingleton.elim _ _
      show offL 0 + 1 * ((p 0).val - o) = (p 0).val
      omega
    have hidx2 : idxAt (s := S1001) ![pay] h (fun a => ⟨(p 0).val - o, hx' a⟩) = Cert.Lookup.tblIdx (G1 p) := by
      funext a; apply Fin.ext
      obtain rfl : a = 0 := Subsingleton.elim _ _
      show (pay (fun a => ⟨(p 0).val - o, hx' a⟩)).toNat = (Cert.Lookup.clampW (G1 p)).toNat
      rw [hpay]
      show (Cert.Lookup.clampW (G1 ((Rect.unit (s := S1024) offL S16.size inbL).toLoadRect.idx (fun a => ⟨(p 0).val - o, hx' a⟩)))).toNat = _
      rw [hidx]
    exact congrArg G0 hidx2
  · rw [store_out d L g2 offS inbS _ p (by omega)]
    exact hprev p hlo (by omega)

omit [FloatOps F] in
/-- The same, the store spelt as one write through its rectangle. -/
theorem trip_fact' (G0 : Buf (Elt F) ((V d (cV L) (jV L)).loc cc0_scratch0)) (G1 : Buf (Elt F) ((V d (cV L) (jV L)).loc cc0_scratch1))
    (g2 : Buf (Elt F) ((V d (cV L) (jV L)).loc cc0_scratch2)) (o : Nat)
    (offL offS : Fin 1 → Nat) (hL : offL 0 = o) (hS : offS 0 = o)
    (inbL : ∀ a, offL a + S16.size a ≤ S1024.size a) (inbS : ∀ a, offS a + S16.size a ≤ S1024.size a)
    (pay : IVec S16 32)
    (hpay : ∀ x, pay x = Cert.Lookup.clampW ((sI).view.readAt (Elt F) (Rect.unit (s := S1024) offL S16.size inbL).toLoadRect G1 x))
    (h : ∀ a x, ((![pay] : Fin 1 → IVec S16 32) a x).toNat < S1001.size a)
    (lo : Nat) (hprev : ∀ p : S1024.Idx, lo ≤ (p 0).val → (p 0).val < o → g2 p = G0 (Cert.Lookup.tblIdx (G1 p)))
    (p : S1024.Idx) (hlo : lo ≤ (p 0).val) (hhi : (p 0).val < o + 16) :
    View.write (Elt F) ((sR).access (Rect.unit (s := S1024) offS S16.size inbS)) g2
        (loadIdx (View.read (Elt F) ((sT).access (Rect.whole S1001)) G0) ![pay] h) Finset.univ p = G0 (Cert.Lookup.tblIdx (G1 p)) :=
  trip_fact d L G0 G1 g2 o offL offS hL hS inbL inbS pay hpay h lo hprev p hlo hhi

/-- The table as launched, and the task's block of `t` as launched: what the two inbound copies land in the scratch. -/
def tblV : Buf (Elt F) ((V d (cV L) (jV L)).loc cc0_scratch0) := View.read (Elt F) (xW).view (m (xLoc d))
def idxV : Buf (Elt F) ((V d (cV L) (jV L)).loc cc0_scratch1) := View.read (Elt F) (tRowK L).view (m (tLoc d))

omit [FloatOps F] in
theorem tblV_apply (x : S1001.Idx) : tblV m d L x = m (xLoc d) x := rfl
omit [FloatOps F] in
theorem idxV_apply (p : S1024.Idx) : idxV m d L p = m (tLoc d) ((tRowK L).view.emb p) := by
  unfold idxV; rw [View.read_apply]; exact cast_eq _ _

omit [FloatOps F] in
theorem landT (f0 : Buf (Elt F) ((V d (cV L) (jV L)).loc cc0_scratch0)) (w : S1001.Idx → Elt F .f32) (hw : w = tblV m d L) :
    ((sT).view.loc (V d (cV L) (jV L)) ↦{fullShare} View.write (Elt F) (sT).view f0 w Finset.univ : sProp 𝕄)
      = ((sT).view.loc (V d (cV L) (jV L)) ↦{fullShare} tblV m d L) := by
  subst hw
  exact congrArg _ (View.write_whole_univ (Val := Elt F) (cc0_scratch0 : Ref sig .scVector) f0 _)
omit [FloatOps F] in
theorem landI (f1 : Buf (Elt F) ((V d (cV L) (jV L)).loc cc0_scratch1)) (w : S1024.Idx → Elt F .i32) (hw : w = idxV m d L) :
    ((sI).view.loc (V d (cV L) (jV L)) ↦{fullShare} View.write (Elt F) (sI).view f1 w Finset.univ : sProp 𝕄)
      = ((sI).view.loc (V d (cV L) (jV L)) ↦{fullShare} idxV m d L) := by
  subst hw
  exact congrArg _ (View.write_whole_univ (Val := Elt F) (cc0_scratch1 : Ref sig .scVector) f1 _)

omit [FloatOps F] in
/-- Position `y` of the lower half of the task's block: the same position of the result scratch's lower half, whose
    index word is the one at that position of the task's block of `t`; likewise the upper halves. -/
theorem emb_lo (y : S512.Idx) : ((tRowK L).view.emb ((rLo).view.emb y) : S16384.Idx) = ((oLoK L).view.emb y : S16384.Idx) := by
  funext a; apply Fin.ext
  have ha : a = (0 : Fin 1) := Subsingleton.elim (α := Fin 1) a 0
  subst ha
  show (k0_off1 L) 0 + 1 * (0 + 1 * (y 0).val) = (k0_off4 L) 0 + 1 * (y 0).val
  rw [k0_off1_eq, k0_off4_eq]; simp
omit [FloatOps F] in
theorem emb_hi (y : S512.Idx) : ((tRowK L).view.emb ((rHi).view.emb y) : S16384.Idx) = ((oHiK L).view.emb y : S16384.Idx) := by
  have h0 : (L 0).val < 1 := (L 0).isLt
  funext a; apply Fin.ext
  have ha : a = (0 : Fin 1) := Subsingleton.elim (α := Fin 1) a 0
  subst ha
  show (k0_off1 L) 0 + 1 * (512 + 1 * (y 0).val) = (k0_off7 L) 0 + 1 * (y 0).val
  rw [k0_off1_eq, k0_off7_eq]; simp; omega

omit [FloatOps F] in
/-- What the first outbound copy lands in the lower half of the task's block of the result is the lookup there. -/
theorem landed_lo (g2 : Buf (Elt F) ((V d (cV L) (jV L)).loc cc0_scratch2))
    (hg2 : ∀ p : S1024.Idx, (p 0).val < 16 * 32 → g2 p = tblV m d L (Cert.Lookup.tblIdx (idxV m d L p)))
    (w : S512.Idx → Elt F .f32) (hw : w = ReadAs.same.apply (View.read (Elt F) (rLo).view g2)) :
    ∀ i ∈ (oLoK L).view.set, (oLoK L).view.writes (Elt F) (m (oLoc d)) [⟨Rect.whole S512, w⟩] i = outG m d i := by
  subst hw
  intro i hi
  obtain ⟨y, -, rfl⟩ := Finset.mem_map.mp hi
  have hy : (y 0).val < 512 := (y 0).isLt
  have he : ((oLoK L).view.slice (Rect.whole S512)).emb y = (oLoK L).view.emb y := by
    show (oLoK L).view.emb ((Rect.whole S512).emb y) = _
    rw [Rect.emb_whole_apply]
  have hwv := View.write_emb_of_mem (v := (oLoK L).view.slice (Rect.whole S512)) (Val := Elt F) (m (oLoc d))
    (ReadAs.same.apply (View.read (Elt F) (rLo).view g2)) (M := Finset.univ) (x := y) (Finset.mem_univ _)
  rw [he] at hwv
  rw [View.writes_singleton, hwv, cast_eq]
  show View.read (Elt F) (rLo).view g2 y = _
  rw [View.read_apply, cast_eq, hg2 _ (by show 0 + 1 * (y 0).val < 16 * 32; omega), tblV_apply, idxV_apply, emb_lo]
  rfl

omit [FloatOps F] in
/-- And the second, in the upper half. -/
theorem landed_hi (g3 : Buf (Elt F) ((V d (cV L) (jV L)).loc cc0_scratch2))
    (hg3 : ∀ p : S1024.Idx, 512 ≤ (p 0).val → (p 0).val < 512 + 16 * 32 → g3 p = tblV m d L (Cert.Lookup.tblIdx (idxV m d L p)))
    (w : S512.Idx → Elt F .f32) (hw : w = ReadAs.same.apply (View.read (Elt F) (rHi).view g3)) :
    ∀ i ∈ (oHiK L).view.set, (oHiK L).view.writes (Elt F) (m (oLoc d)) [⟨Rect.whole S512, w⟩] i = outG m d i := by
  subst hw
  intro i hi
  obtain ⟨y, -, rfl⟩ := Finset.mem_map.mp hi
  have hy : (y 0).val < 512 := (y 0).isLt
  have he : ((oHiK L).view.slice (Rect.whole S512)).emb y = (oHiK L).view.emb y := by
    show (oHiK L).view.emb ((Rect.whole S512).emb y) = _
    rw [Rect.emb_whole_apply]
  have hwv := View.write_emb_of_mem (v := (oHiK L).view.slice (Rect.whole S512)) (Val := Elt F) (m (oLoc d))
    (ReadAs.same.apply (View.read (Elt F) (rHi).view g3)) (M := Finset.univ) (x := y) (Finset.mem_univ _)
  rw [he] at hwv
  rw [View.writes_singleton, hwv, cast_eq]
  show View.read (Elt F) (rHi).view g3 y = _
  rw [View.read_apply, cast_eq, hg3 _ (by show 512 ≤ 512 + 1 * (y 0).val; omega) (by show 512 + 1 * (y 0).val < 512 + 16 * 32; omega),
    tblV_apply, idxV_apply, emb_hi]
  rfl

omit [FloatOps F] in
/-- The two halves of the result scratch, at whatever they hold, are the scratch at some contents. -/
theorem sR_rejoin (f g : Buf (Elt F) ((V d (cV L) (jV L)).loc cc0_scratch2)) :
    iprop(((rLo).view.loc (V d (cV L) (jV L)) ↦[(rLo).view.set]{fullShare} f) ∗ ((rHi).view.loc (V d (cV L) (jV L)) ↦[(rHi).view.set]{fullShare} g))
      ⊢ (iprop(∃ h, (V d (cV L) (jV L)).loc cc0_scratch2 ↦{fullShare} h) : sProp 𝕄) := by
  have hj : iprop(((V d (cV L) (jV L)).loc cc0_scratch2 ↦[(rLo).view.set]{fullShare} f) ∗ ((V d (cV L) (jV L)).loc cc0_scratch2 ↦[(rHi).view.set]{fullShare} g))
      ⊢ ((V d (cV L) (jV L)).loc cc0_scratch2 ↦[(rLo).view.set ∪ (rHi).view.set]{fullShare} _ : sProp 𝕄) := pointsTo_join rHalves_disjoint
  rw [rHalves_union] at hj
  refine hj.trans ?_
  iintro H; iexists _; iexact H

/-- Before trip `k` of the first loop: the table scratch and the index scratch at their landed contents `g0`, `g1`, the
    result scratch holding the lookup at every position below `16·k`. -/
def inv1 (g0 : Buf (Elt F) ((V d (cV L) (jV L)).loc cc0_scratch0)) (g1 : Buf (Elt F) ((V d (cV L) (jV L)).loc cc0_scratch1))
    (k : Nat) (_ : PUnit) : sProp 𝕄 :=
  iprop(((sT).view.loc (V d (cV L) (jV L)) ↦{fullShare} g0) ∗ ((sI).view.loc (V d (cV L) (jV L)) ↦{fullShare} g1)
    ∗ ∃ f2 : Buf (Elt F) ((V d (cV L) (jV L)).loc cc0_scratch2), ((sR).view.loc (V d (cV L) (jV L)) ↦{fullShare} f2)
      ∗ ⌜∀ p : S1024.Idx, (p 0).val < 16 * k → f2 p = g0 (Cert.Lookup.tblIdx (g1 p))⌝)

omit [FloatOps F] in
/-- The sixteen positions a trip of the second loop touches lie in the upper half of the result scratch. -/
theorem sub_hi (k : Fin k0_t2_loop.trips) :
    ((sR).access (Rect.unit (s := S1024) (k0_off6 k) S16.size (k0_off6_inb k))).set ⊆ (rHi).view.set := by
  intro i hi
  rw [mem_rHi]
  have e : ((sR).access (Rect.unit (s := S1024) (k0_off6 k) S16.size (k0_off6_inb k))).set = (Rect.unit (s := S1024) (k0_off6 k) S16.size (k0_off6_inb k)).set := by
    show ((View.whole (cc0_scratch2 : Ref sig .scVector)).slice _).set = _
    rw [View.set_slice]; exact Finset.map_refl
  have hi' := (Finset.ext_iff.mp e i).mp hi
  have h0 := (Rect.mem_set_unit.mp hi') 0
  rw [k0_off6_eq] at h0
  simp at h0
  omega

/-- Before trip `k` of the second loop: the same two scratches, and the upper half of the result scratch (the lower half is
    being copied out) holding the lookup at every position from 512 to below `512 + 16·k`. -/
def inv2 (g0 : Buf (Elt F) ((V d (cV L) (jV L)).loc cc0_scratch0)) (g1 : Buf (Elt F) ((V d (cV L) (jV L)).loc cc0_scratch1))
    (k : Nat) (_ : PUnit) : sProp 𝕄 :=
  iprop(((sT).view.loc (V d (cV L) (jV L)) ↦{fullShare} g0) ∗ ((sI).view.loc (V d (cV L) (jV L)) ↦{fullShare} g1)
    ∗ ∃ f2 : Buf (Elt F) ((V d (cV L) (jV L)).loc cc0_scratch2), ((rHi).view.loc (V d (cV L) (jV L)) ↦[(rHi).view.set]{fullShare} f2)
      ∗ ⌜∀ p : S1024.Idx, 512 ≤ (p 0).val → (p 0).val < 512 + 16 * k → f2 p = g0 (Cert.Lookup.tblIdx (g1 p))⌝)

/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (tRowPts m d (jL L) ∗ xTok m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__alpha_bar_gather L tW (Memref.isWhole_whole _) xW (Memref.isWhole_whole _) oW (Memref.isWhole_whole _)
            sT (Memref.isWhole_whole _) sI (Memref.isWhole_whole _) sR (Memref.isWhole_whole _) cc0_scratch3 cc0_scratch4 cc0_scratch5)
          fun _ => iprop((tRowPts m d (jL L) ∗ xTok m d (jL L) ∗ oRowPts d (jL L) (outG m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__alpha_bar_gather_eq_skeleton]; unfold cc0__alpha_bar_gather_skel
  rw [(K (F := F)).scopedBufs_V hF d (cV L) (jV L), SparseCore.Cfg.scopedSems0_V (Val := Elt F) d (cV L) (jV L), ownSems0_V, ownBufs_V]
  iintro ⟨#Hlv, -, ⟨Ht, Hx, Ho⟩, ⟨⟨%f0, Hs0⟩, ⟨%f1, Hs1⟩, ⟨%f2, Hs2⟩, Hbufs⟩, ⟨HsemT, HsemI, HsemO, Hsems⟩, HO⟩
  ihave Hmw := ((K (F := F)).mayWaits_none (thr := V d (cV L) (jV L)) hO) $$ Hlv
  ihave Ht' := (Entails.of_eq (pts_tRowK (F := F) d L _).symm) $$ Ht
  ihave Hx' := (Entails.of_eq (pts_xW (F := F) d L _ _).symm) $$ Hx
  ihave Ho2 := (oRow_split (F := F) d L _) $$ Ho
  icases Ho2 with ⟨HoLo, HoHi⟩
  ihave Hs0' := (Entails.of_eq (pts_sT (F := F) d L _).symm) $$ Hs0
  ihave Hs1' := (Entails.of_eq (pts_sI (F := F) d L _).symm) $$ Hs1
  ihave Hs2' := (Entails.of_eq (pts_sR (F := F) d L _).symm) $$ Hs2
  sl_exec
  ihave Hs0n := (Entails.of_eq (landT (F := F) m d L f0 (tile_body.sl.dma0 m d) rfl)) $$ Hs0'
  ihave Hs1n := (Entails.of_eq (landI (F := F) m d L f1 (tile_body.sl.dma0_1 m d L) rfl)) $$ Hs1'
  sl_for (inv1 (F := F) d L (tblV m d L) (idxV m d L)) $$ [Hs0n Hs1n Hs2']
  pick_goal 2
  · unfold inv1
    isplitl [Hs0n]; · iexact Hs0n
    isplitl [Hs1n]; · iexact Hs1n
    iexists _; isplitl [Hs2']; · iexact Hs2'
    ipureintro; intro p hp; omega
  case region =>
    intro k _
    unfold inv1
    iintro ⟨Hs0, Hs1, %g2, Hs2, %hg2⟩
    sl_exec (disch := exact chk1_all _)
    ihave Hs0a := (Entails.of_eq (pts_sT_access (F := F) d L _).symm) $$ Hs0
    iapply (SparseCore.wp_vectorLoadIdx 𝒱₀ (V d (cV L) (jV L)) none Set.univ (base := sT) (S := Finset.univ) (q := fullShare) (Finset.subset_univ _)) $$ Hs0a; iintro Hs0a
    sl_exec
    sl_step
    ihave Hs0 := (Entails.of_eq (pts_sT_access (F := F) d L _)) $$ Hs0a
    isplitl [Hs0]; · iexact Hs0
    isplitl [Hs1]; · iexact Hs1
    iexists _; isplitl [Hs2]; · iexact Hs2
    ipureintro
    intro p hp
    refine trip_fact (F := F) d L _ _ g2 (16 * k.val) (k0_off2 k) (k0_off3 k) (congrFun (k0_off2_eq k) 0) (congrFun (k0_off3_eq k) 0)
      (k0_off2_inb k) (k0_off3_inb k) _ (fun x => ?_) _ 0 (fun q _ hq => hg2 q hq) p (Nat.zero_le _) (by omega)
    exact pay1_apply _ x
  iintro %_ HI
  have htr1 : Scf.trips k0_t1_loop.lb k0_t1_loop.ub k0_t1_loop.st = 32 := by decide
  rw [htr1]
  unfold inv1
  icases HI with ⟨Hs0, Hs1, %g2, Hs2, %hg2⟩
  ihave Hs2s := (sR_split (F := F) d L _) $$ Hs2
  icases Hs2s with ⟨HrLo, HrHi⟩
  have _plan : Transfers.BatchOf (V d (cV L) (jV L)) (SemLoc.dma (sig := sig) cc0_scratch5.sem) 2 := trivial
  sl_exec
  sl_for (inv2 (F := F) d L (tblV m d L) (idxV m d L)) $$ [Hs0 Hs1 HrHi]
  pick_goal 2
  · unfold inv2
    isplitl [Hs0]; · iexact Hs0
    isplitl [Hs1]; · iexact Hs1
    iexists _; isplitl [HrHi]; · iexact HrHi
    ipureintro; intro p h1 h2; omega
  case region =>
    intro k _
    unfold inv2
    iintro ⟨Hs0, Hs1, %g3, HrHi, %hg3⟩
    have hsub := sub_hi k
    sl_exec (disch := exact chk2_all _)
    ihave Hs0a := (Entails.of_eq (pts_sT_access (F := F) d L _).symm) $$ Hs0
    iapply (SparseCore.wp_vectorLoadIdx 𝒱₀ (V d (cV L) (jV L)) none Set.univ (base := sT) (S := Finset.univ) (q := fullShare) (Finset.subset_univ _)) $$ Hs0a; iintro Hs0a
    sl_exec
    sl_step
    ihave Hs0 := (Entails.of_eq (pts_sT_access (F := F) d L _)) $$ Hs0a
    isplitl [Hs0]; · iexact Hs0
    isplitl [Hs1]; · iexact Hs1
    iexists _; isplitl [HrHi]; · iexact HrHi
    ipureintro
    intro p hp1 hp2
    unfold tile_body.sl.HrHi_w1
    refine trip_fact' (F := F) d L _ _ g3 (16 * k.val + 512) (k0_off5 k) (k0_off6 k) (congrFun (k0_off5_eq k) 0) (congrFun (k0_off6_eq k) 0)
      (k0_off5_inb k) (k0_off6_inb k) _ (fun x => ?_) _ 512 (fun q hq1 hq2 => hg3 q hq1 (by omega)) p hp1 (by omega)
    exact pay2_apply _ x
  iintro %_ HI
  have htr2 : Scf.trips k0_t2_loop.lb k0_t2_loop.ub k0_t2_loop.st = 32 := by decide
  rw [htr2]
  unfold inv2
  icases HI with ⟨Hs0, Hs1, %g3, HrHi, %hg3⟩
  sl_exec
  sl_step
  ihave HoLo2 := (Entails.of_eq (pointsTo_congr (landed_lo (F := F) m d L g2 hg2 (tile_body.sl.dma0_2 d L g2) rfl))) $$ HoLo
  ihave HoHi2 := (Entails.of_eq (pointsTo_congr (landed_hi (F := F) m d L g3 hg3 (tile_body.sl.dma0_3 d L g3) rfl))) $$ HoHi
  isplitl [Ht' Hx' HoLo2 HoHi2]
  · isplitl [Ht']; · iapply (Entails.of_eq (pts_tRowK (F := F) d L _)); iexact Ht'
    isplitl [Hx']; · iapply (Entails.of_eq (pts_xW (F := F) d L _ _)); iexact Hx'
    iapply (oRow_join (F := F) d L (outG m d))
    isplitl [HoLo2]; · iexact HoLo2
    iexact HoHi2
  isplitl [Hs0 Hs1 HrLo HrHi Hbufs]
  · isplitl [Hs0]; · iexists _; iexact Hs0
    isplitl [Hs1]; · iexists _; iexact Hs1
    isplitl [HrLo HrHi]
    · iapply (sR_rejoin (F := F) d L g2 g3)
      isplitl [HrLo]; · iexact HrLo
      iexact HrHi
    iexact Hbufs
  isplitl [HsemT HsemI HsemO Hsems]
  · isplitl [HsemT]; · iexact HsemT
    isplitl [HsemI]; · iexact HsemI
    isplitl [HsemO]; · iexact HsemO
    iexact Hsems
  iexists _; isplitr
  pick_goal 2
  · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__alpha_bar_gather (coordsV c s)
          tW (Memref.isWhole_whole _) xW (Memref.isWhole_whole _) oW (Memref.isWhole_whole _)
          sT (Memref.isWhole_whole _) sI (Memref.isWhole_whole _) sR (Memref.isWhole_whole _) cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call meets the launch's obligation: it runs from its block of `t`, its share of the table and
    its block of the result, and hands them back with the block at the lookup. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.KB

end
-- ==== Proof.KB.Launch.lean ====
/-
  The launch of the kernel's one SparseCore call: how the call's three arrays split among the sixteen tasks
  and how the tasks' results make up the call's — block `i` of `t` and of the result to task `i`, the table as sixteen
  read shares beside a remainder that waits for them —, what @main does on the TensorCore (the call, nothing else), and
  what the final memory then holds: `t` and the table as launched, the result at the lookup. The run of the whole
  family of threads follows from one task's proof.
-/
import proofs.«204889_g41197326303608_cont_8to1_b_1968_17_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The arrays by blocks -/

omit [FloatOps F] in
theorem rowSet_eq' (i : Fin 16) : rowSet i = (row i).set := by
  show ((View.whole (main_arg0_scv : Ref sig .scVector)).slice (row i)).set = _
  rw [View.set_slice]; exact Finset.map_refl
omit [FloatOps F] in
theorem rows_disjoint : ∀ i ∈ (Finset.univ : Finset (Fin 16)), ∀ j ∈ (Finset.univ : Finset (Fin 16)), i ≠ j → Disjoint (rowSet i) (rowSet j) :=
  fun i _ j _ h => by rw [rowSet_eq', rowSet_eq']; exact Rect.part_disjoint hdiv h
omit [FloatOps F] in
theorem rows_cover : (Finset.univ : Finset (Fin 16)).biUnion rowSet = Finset.univ :=
  (Finset.biUnion_congr rfl fun i _ => rowSet_eq' i).trans (Rect.biUnion_part hdiv)

omit [FloatOps F] in
theorem tPts_rows (d : Dev nD) (f : Buf (Elt F) (tLoc d)) :
    (tLoc d ↦{fullShare} f : sProp 𝕄) = bigSep Finset.univ fun i : Fin 16 => tLoc d ↦[rowSet i]{fullShare} f := by
  rw [← pointsTo_biUnion Finset.univ (ℓ := tLoc d) rowSet rows_disjoint, rows_cover]; try rfl
omit [FloatOps F] in
theorem oPts_rows (d : Dev nD) (f : Buf (Elt F) (oLoc d)) :
    (oLoc d ↦{fullShare} f : sProp 𝕄) = bigSep Finset.univ fun i : Fin 16 => oLoc d ↦[rowSet i]{fullShare} f := by
  rw [← pointsTo_biUnion Finset.univ (ℓ := oLoc d) rowSet rows_disjoint, rows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(tPts m d ∗ xPts m d ∗ oPts d (m (oLoc d))) ⊢ |={Set.univ}=> iprop(
      (bigSep Finset.univ fun i : Fin ((K (F := F)).nSub 0) =>
        iprop(tRowPts m d (Fin.cast nSub_zero i) ∗ xTok m d (Fin.cast nSub_zero i) ∗ oRowPts d (Fin.cast nSub_zero i) (m (oLoc d))))
      ∗ ((bigSep Finset.univ fun i : Fin ((K (F := F)).nSub 0) =>
          iprop(tRowPts m d (Fin.cast nSub_zero i) ∗ xTok m d (Fin.cast nSub_zero i) ∗ oRowPts d (Fin.cast nSub_zero i) (outG m d)))
          -∗ iprop(tPts m d ∗ xPts m d ∗ oPts d (outG m d))))
  rw [bigSep_tasks (F := F) (fun i => iprop(tRowPts m d i ∗ xTok m d i ∗ oRowPts d i (m (oLoc d)))),
    bigSep_tasks (F := F) (fun i => iprop(tRowPts m d i ∗ xTok m d i ∗ oRowPts d i (outG m d))), bigSep_sep', bigSep_sep', bigSep_sep', bigSep_sep']
  unfold tPts oPts tRowPts oRowPts
  rw [tPts_rows, oPts_rows, oPts_rows]
  iintro ⟨Ht, Hx, Ho⟩
  ihave Hx2 := (Transfers.pointsTo_toks_split fullShare 16) $$ Hx
  icases Hx2 with ⟨Hrem, Htoks⟩
  imodintro
  isplitl [Ht Htoks Ho]
  · isplitl [Ht]; · iexact Ht
    isplitl [Htoks]; · iexact Htoks
    iexact Ho
  iintro ⟨Ht, Htoks, Ho⟩
  isplitl [Ht]; · iexact Ht
  isplitl [Hrem Htoks]
  · iapply (Transfers.pointsTo_toks_join fullShare 16)
    isplitl [Hrem]; · iexact Hrem
    iexact Htoks
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(tPts m d ∗ xPts m d ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ xPts m d ∗ oPts d (outG m d)) :=
  bigSep_univ_of_subsingleton (0 : Fin 1)

/-- What @main leaves the claim: the three arrays, the result at the lookup. -/
abbrev FIN (d : Dev nD) : sProp 𝕄 := iprop(tPts m d ∗ xPts m d ∗ oPts d (outG m d))

/-- @main on device `d`'s TensorCore: the one call, from the three arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Hx, Ho⟩, -, -⟩, -⟩
  iapply ((K (F := F)).wp_run (D (F := F)) 𝒱 (EH := EH) (P := P m) κ d 0) $$ [Hst Ht Hx Ho]
  isplitr; · iexact Hctx
  isplitl [Hst]; · iexact Hst
  isplitl [Ht Hx Ho]
  · rw [st0_eq]
    isplitl [Ht]; · iexact Ht
    isplitl [Hx]; · iexact Hx
    iexact Ho
  iintro ⟨Hst, Hdn⟩
  ihave Hdn' := (Entails.of_eq (dn0_eq m d)) $$ Hdn
  icases Hdn' with ⟨Ht, Hx, Ho⟩
  imodintro
  isplitl [Hst]; · iexact Hst
  isplitl [Ht]; · iexact Ht
  isplitl [Hx]; · iexact Hx
  iexact Ho

def fq (d : Dev nD) (s' : Phys nD τ sig (Elt F)) : Prop :=
  s'.mem.mem (oLoc d) = outG m d ∧ s'.mem.mem (tLoc d) = m (tLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Ht, Hx, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := outG m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with the result at the lookup of the launch contents and the two arguments unchanged. -/
def QC : PUnit × MemSt nD τ sig (Elt F) → Prop := fun r =>
  ∀ c : Dev nD, r.2.mem (oLoc c) = outG m c ∧ r.2.mem (tLoc c) = m (tLoc c) ∧ r.2.mem (xLoc c) = m (xLoc c)

theorem run_of_tile [∀ e, Nonempty (Elt F e)] (hobl : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KB.Run.lean ====
/-
  The run of the kernel: one task's proof (`tileObl`) under the launch of the call (`run_of_tile`). Every
  weakly fair execution of the device's threads — the TensorCore, the sequencers, the vector subcores — ends, nothing
  faulting, with the result array at the lookup of the launch contents and the two arguments unchanged.
-/
import proofs.«204889_g41197326303608_cont_8to1_b_1968_17_alg».proof.Proof.KB.Body
import proofs.«204889_g41197326303608_cont_8to1_b_1968_17_alg».proof.Proof.KB.Launch

noncomputable section

namespace Cert.Proof.KB

open Idealize.ShloMosaic Idealize.SL.Sem

theorem run {F : FTy → Type} [FloatOps F] (m : (ℓ : Loc Cert.Kernel.nD Cert.Kernel.τ Cert.Kernel.sig) → Buf (Elt F) ℓ)
    (ρ : Dev Cert.Kernel.nD → PrngReg) :
    θ_run (Cert.Kernel.defs (F := F)) (Cert.Kernel.threads (F := F)) ⟨m, fun _ => 0, ρ⟩ (QC m) :=
  run_of_tile m ρ (tileObl m facts)

end Cert.Proof.KB

end
-- ==== Proof.RefRun.lean ====
/-
  The reference program's run. Its @main is a straight line of host operations once the three outlined
  functions (the clip, the select and the table lookup) are unfolded at their calls: two constants, the clip's
  six operations, and the lookup's twenty-three (one of them the select's). Every weakly fair execution
  terminates with each buffer at the fold of those operations over the launch contents; at the result buffer
  the fold is the composed term 'out' of the two arguments, and the arguments are left as they were.
-/
import proofs.«204889_g41197326303608_cont_8to1_b_1968_17_alg».proof.ReferenceIdeal
import proofs.«204889_g41197326303608_cont_8to1_b_1968_17_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-! ## The composed term -/

/-- The clip: the minimum of the broadcast 999 and the maximum of the broadcast 0 and the index, the bounds first. -/
def clipped (t : IVec S16384 32) : IVec S16384 32 :=
  minsi (broadcastInDim S16384 ![] bcast_S_S16384 (constantI S_ 32 999#32))
    (maxsi (broadcastInDim S16384 ![] bcast_S_S16384 (constantI S_ 32 0#32)) t)

/-- A negative index wrapped around by the table's length. -/
def wrapped (x : IVec S16384 32) : IVec S16384 32 :=
  select (cmpi .slt x (broadcastInDim S16384 ![] bcast_S_S16384 (constantI S_ 32 0#32)))
    (addi x (broadcastInDim S16384 ![] bcast_S_S16384 (constantI S_ 32 1001#32))) x

/-- The indices as a column: one start index per position. -/
def col (x : IVec S16384 32) : IVec S16384x1 32 :=
  broadcastInDim S16384x1 ![0] bcast_S16384_S16384x1_0 x

/-- The mask: the start index lies in [0, 1000], the conjunction taken over the column's unit axis. -/
def mask (k : IVec S16384x1 32) : IVec S16384 1 :=
  Host.reduce IntOp.andi
    (andi (cmpi .sge k (broadcastInDim S16384x1 ![] bcast_S_S16384x1 (constantI S_ 32 0#32)))
      (cmpi .sle k (broadcastInDim S16384x1 ![0, 1] bcast_S1x1_S16384x1_0_1
        (broadcastInDim S1x1 ![1] bcast_S1_S1x1_1 (constantI S1 32 1000#32)))))
    (constantI S_ 1 1#1) reducesTo_S16384x1_S16384_d1 h_S_

/-- The result: where the mask holds the gathered entry, elsewhere the NaN constant. -/
def out (t : IVec S16384 32) (tbl : FVec F S1001 .f32) : FVec F S16384 .f32 :=
  select (mask (col (wrapped (clipped t))))
    (Host.gather gather_S1001_S16384x1_S16384_n_0_n_n_0_1_1 tbl (col (wrapped (clipped t))))
    (broadcastInDim S16384 ![] bcast_S_S16384 (constant S_ .f32 0x7FC00000#32))

/-! ## The run -/

/-- @main's thirty-one operations in order, the calls unfolded: the two bounds; the clip's six into the first
    call's buffers; the lookup's into the second call's, the select of the wrap-around into the nested call's. -/
abbrev ops : List (HloOp τ sig (Elt F)) :=
  [ nullary main_c (constantI S_ 32 0#32),
    nullary main_c_0 (constantI S_ 32 999#32),
    TRef.unary (.of main_c) main_call0.v0 id,
    TRef.unary main_call0.v0 main_call0.v1 (broadcastInDim S16384 ![] bcast_S_S16384),
    TRef.binary main_call0.v1 (.of main_arg0) main_call0.v2 maxsi,
    TRef.unary (.of main_c_0) main_call0.v3 id,
    TRef.unary main_call0.v3 main_call0.v4 (broadcastInDim S16384 ![] bcast_S_S16384),
    TRef.binary main_call0.v4 main_call0.v2 main_call0.v5 minsi,
    TRef.nullary main_call1.c (constantI S_ 32 0#32),
    TRef.unary main_call1.c main_call1.v0 (broadcastInDim S16384 ![] bcast_S_S16384),
    TRef.binary (.of main_v0) main_call1.v0 main_call1.v1 (cmpi .slt),
    TRef.nullary main_call1.c_0 (constantI S_ 32 1001#32),
    TRef.unary main_call1.c_0 main_call1.v2 (broadcastInDim S16384 ![] bcast_S_S16384),
    TRef.binary (.of main_v0) main_call1.v2 main_call1.v3 addi,
    TRef.ternary main_call1.v1 main_call1.v3 (.of main_v0) main_call1.call0.v0 select,
    TRef.unary main_call1.call0.v0 main_call1.v5 (broadcastInDim S16384x1 ![0] bcast_S16384_S16384x1_0),
    TRef.nullary main_call1.c_1 (constantI S1 32 1000#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg1) main_call1.v5 main_call1.v13 (fun x i => Host.gather gather_S1001_S16384x1_S16384_n_0_n_n_0_1_1 x i),
    TRef.nullary main_call1.cst (constant S_ .f32 0x7FC00000#32),
    TRef.unary main_call1.cst main_call1.v14 (broadcastInDim S16384 ![] bcast_S_S16384),
    TRef.ternary main_call1.v12 main_call1.v13 main_call1.v14 main_call1.v15 select ]

set_option maxRecDepth 1024 in
/-- @main is that straight line: the three functions' definitions unfolded at their calls and the records at
    their fields, both sides are one chain of operations once sequencing is reassociated. -/
theorem main_eq (c : Dev nD) : main (F := F) c = seq ops := by
  simp only [main, fn_clip.body, fn_where.body, fn_take.body, seq, bind_assoc, pure_bind]

attribute [local irreducible] Host.reduce Host.gather in
set_option maxRecDepth 8192 in
/-- The fold at the result buffer is the composed term: each operation's result at its own buffer is its
    function's value and at any other buffer what was there; the typed references' transports are the identity
    at literal references, and what is left is the composed term unfolded. The reduce and the gather are kept
    folded meanwhile. -/
theorem out_eq (V : Valuation τ sig (Elt F)) :
    after ops V (main_v1 : DevRef τ sig) = out (V (main_arg0 : DevRef τ sig)) (V (main_arg1 : DevRef τ sig)) := by
  after_results_simp
  simp only [TRef.toBuf, TRef.ofBuf, cast_eq, id]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..⟩

/-- From any memory with zero counters: every weakly fair execution of @main terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run read at the result and the two arguments: the result is the composed term of the arguments'
    launch contents, the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _),
      (h c main_arg1).trans (arg1_eq _)⟩)
    (run_main m ρ)

end Cert.ReferenceIdeal.RefValue

end
-- ==== Proof.RefValue.lean ====
/-
  The reference's composed term is the table lookup at the clamped index. At every position the clipped index
  is the clamped word (the host spells the maximum and the minimum with the bound first). As a signed word it is
  not negative, so the wrap-around select keeps it; it lies in [0, 1000], so both comparisons of the mask hold
  and their conjunction, reduced by 'and' from 1 over the column's unit axis, is 1; the gather clamps a start index
  into [0, 1000], which leaves it as it is, so the gathered entry is the table's at the clamped word; the last
  select takes it. The NaN constant is never read.
-/
import proofs.«204889_g41197326303608_cont_8to1_b_1968_17_alg».proof.Proof.RefRun
import proofs.«204889_g41197326303608_cont_8to1_b_1968_17_alg».proof.Proof.Spec
import Idealize.ShloMosaic.Lib.ValueIdx
import Idealize.ShloMosaic.Lib.Affine
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## The clamped word, signed -/

/-- The clamped word reads the same signed and unsigned: it is below 2^31. -/
theorem clampW_toInt (w : BitVec 32) : (Cert.Lookup.clampW w).toInt = ((Cert.Lookup.clampW w).toNat : Int) :=
  BitVec.toInt_eq_toNat_of_lt (by have := Cert.Lookup.clampW_le w; omega)

/-- It is not negative … -/
theorem clampW_not_slt (w : BitVec 32) : IntOp.cmpi .slt (Cert.Lookup.clampW w) 0#32 = 0#1 := by
  refine eq_zero_of_ne_one fun h => ?_
  rw [IntOp.cmpi_slt, clampW_toInt, show (0#32 : BitVec 32).toInt = 0 from by decide] at h
  omega

/-- … it is at least 0 … -/
theorem clampW_sge (w : BitVec 32) : IntOp.cmpi .sge (Cert.Lookup.clampW w) 0#32 = 1#1 := by
  rw [IntOp.cmpi_sge, clampW_toInt, show (0#32 : BitVec 32).toInt = 0 from by decide]
  omega

/-- … and at most 1000. -/
theorem clampW_sle (w : BitVec 32) : IntOp.cmpi .sle (Cert.Lookup.clampW w) 1000#32 = 1#1 := by
  rw [IntOp.cmpi_sle, clampW_toInt, show (1000#32 : BitVec 32).toInt = 1000 from by decide]
  have := Cert.Lookup.clampW_le w
  omega

/-! ## The operations at an index -/

/-- The clip at a position is the clamped word. -/
theorem clipped_apply (t : IVec S16384 32) (i : S16384.Idx) : clipped t i = Cert.Lookup.clampW (t i) :=
  Cert.Lookup.clampW_comm (t i)

/-- The wrap-around keeps a clamped word: it is not negative. -/
theorem wrapped_apply (t : IVec S16384 32) (i : S16384.Idx) : wrapped (clipped t) i = Cert.Lookup.clampW (t i) := by
  show Scalar.select (IntOp.cmpi .slt (clipped t i) 0#32) (IntOp.addi (clipped t i) 1001#32) (clipped t i) = _
  rw [clipped_apply, clampW_not_slt, select_zero]

/-- The column at (i, 0) is the array at i. -/
theorem col_apply (x : IVec S16384 32) (k : S16384x1.Idx) : col x k = x (ix1 (k 0)) := by
  show x _ = x _
  congr 1
  funext a
  obtain rfl : a = 0 := Subsingleton.elim _ _
  rfl

/-- A left fold by 'and' from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self ..), show IntOp.andi 1#1 1#1 = 1#1 from by decide]
    exact ih fun n hn => h n (List.mem_cons_of_mem _ hn)

/-- The mask holds everywhere: every start index is a clamped word, in [0, 1000]. -/
theorem mask_apply (t : IVec S16384 32) (i : S16384.Idx) : mask (col (wrapped (clipped t))) i = 1#1 := by
  unfold mask
  rw [Host.reduce_eq_foldl]
  refine foldl_andi_one _ _ fun k _ => ?_
  show IntOp.andi (IntOp.cmpi .sge (col (wrapped (clipped t)) k) 0#32)
      (IntOp.cmpi .sle (col (wrapped (clipped t)) k) 1000#32) = 1#1
  rw [col_apply, wrapped_apply, clampW_sge, clampW_sle]
  decide

/-- The gather at a position whose start index is a clamped word reads the table at that word: the gather's own
    clamp into [0, 1000] leaves it. -/
theorem gather_apply {α : Type} (tbl : S1001.Idx → α) (x : IVec S16384 32) (w : BitVec 32) (i : S16384.Idx)
    (hx : x i = Cert.Lookup.clampW w) :
    Host.gather gather_S1001_S16384x1_S16384_n_0_n_n_0_1_1 tbl (col x) i = tbl (Cert.Lookup.tblIdx w) := by
  unfold Host.gather
  congr 1
  funext a
  obtain rfl : a = 0 := Subsingleton.elim _ _
  refine Fin.ext ?_
  show gather_S1001_S16384x1_S16384_n_0_n_n_0_1_1.start i (col x) 0
      + gather_S1001_S16384x1_S16384_n_0_n_n_0_1_1.batchCoord i 0
      + gather_S1001_S16384x1_S16384_n_0_n_n_0_1_1.offCoord i 0 = (Cert.Lookup.clampW w).toNat
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S1001_S16384x1_S16384_n_0_n_n_0_1_1.startIndexMap from List.mem_singleton.mpr rfl)]
  have hsi : col x (gather_S1001_S16384x1_S16384_n_0_n_n_0_1_1.siIdx i
      ⟨List.idxOf (0 : Fin 1) gather_S1001_S16384x1_S16384_n_0_n_n_0_1_1.startIndexMap,
        List.idxOf_lt_length_iff.2 (List.mem_singleton.mpr rfl)⟩) = x i := by
    rw [col_apply]
    congr 1
    funext a
    obtain rfl : a = 0 := Subsingleton.elim _ _
    rfl
  rw [hsi, hx, clampW_toInt, Int.toNat_natCast]
  exact Nat.min_eq_left (by have := Cert.Lookup.clampW_le w; show _ ≤ 1001 - 1; omega)

/-! ## The composed term is the lookup -/

/-- The reference's result, as a function of its two arguments, is the lookup at the clamped index. -/
theorem out_eq_look (t : IVec S16384 32) (tbl : FVec F S1001 .f32) : out t tbl = Cert.Lookup.look t tbl := by
  funext i
  unfold out Cert.Lookup.look
  rw [select_apply, mask_apply, select_one, gather_apply tbl _ (t i) i (wrapped_apply t i)]

/-- From any memory with zero counters: every weakly fair execution of the reference terminates with the result
    buffer holding the lookup of the table argument at the clamped index argument, both arguments unchanged. -/
theorem run (m : (ℓ : Loc nD τ sig) → Buf (Elt F) ℓ) (ρ : Dev nD → PrngReg) :
    θ_run (defs (F := F)) (onTc (τ := τ) (main (F := F))) ⟨m, fun _ => 0, ρ⟩
      (fun r => ∀ c : Dev nD,
        r.2.mem ((c.tc : Thread nD τ).loc main_v1)
            = Cert.Lookup.look (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c).1.trans (out_eq_look _ _), (h c).2⟩) (run_out m ρ)

end Cert.ReferenceIdeal.RefValue

end
-- ==== Proof.lean ====
/-
  The claim: a table lookup at clamped indices, computed by sixteen vector-subcore tasks of one SparseCore call, against
  the host's clip-then-take.
  Both programs compute `out i = tbl (clamp (t i))`, the clamp `min (max · 0) 999` on signed 32-bit words
  (`Cert.Lookup.look`): the entries are moved, never computed with, so the two results are equal entry by entry whatever the
  floats are read as, and whatever `t` holds (the clamped word always names an entry of the table; the precondition
  is not used).
  The kernel's run (Proof/KI for the idealized program, Proof/KB for the printed one, the same text over the two
  programs): each task copies the table and its block of 1024 indices into its scratch, fills its result scratch
  sixteen entries a trip, and copies it out in two halves, the first while the second half is still being filled;
  the launch deals each task its block of `t` and of the result and a read share of the table, and puts the blocks
  back together. The three frames are the runs with the values dropped. The reference's run (Proof/RefRun,
  Proof/RefValue) is its host operations composed and read at an index. No rewrite was applied when the idealized
  program was printed, so there is nothing to preserve.
-/
import proofs.«204889_g41197326303608_cont_8to1_b_1968_17_alg».proof.Defs
import proofs.«204889_g41197326303608_cont_8to1_b_1968_17_alg».proof.Proof.KI.Run
import proofs.«204889_g41197326303608_cont_8to1_b_1968_17_alg».proof.Proof.KB.Run
import proofs.«204889_g41197326303608_cont_8to1_b_1968_17_alg».proof.Proof.RefValue
import proofs.«204889_g41197326303608_cont_8to1_b_1968_17_alg».proof.Proof.Gen.Kernel
import proofs.«204889_g41197326303608_cont_8to1_b_1968_17_alg».proof.Proof.Gen.Kernel.Skeleton
import proofs.«204889_g41197326303608_cont_8to1_b_1968_17_alg».proof.Proof.Gen.KernelIdeal
import proofs.«204889_g41197326303608_cont_8to1_b_1968_17_alg».proof.Proof.Gen.KernelIdeal.Skeleton
import proofs.«204889_g41197326303608_cont_8to1_b_1968_17_alg».proof.Proof.Gen.ReferenceIdeal
import proofs.«204889_g41197326303608_cont_8to1_b_1968_17_alg».proof.Proof.Gen.Pre_input_domain
import Idealize.ShloMosaic.Adequacy
import Idealize.ShloMosaic.Init

noncomputable section

namespace Cert.Proof

open Idealize.ShloMosaic Idealize.SL.Sem

/-- The printed kernel runs and leaves its arguments as they were. -/
theorem frame_k : Cert.frame_Kernel := fun m ρ _ =>
  (θ_run Cert.Kernel.defs _ _).mono (fun _ h c => ⟨(h c).2.1, (h c).2.2⟩) (Cert.Proof.KB.run (F := Bits) m ρ)

/-- So does the idealized kernel. -/
theorem frame_ki : Cert.frame_KernelIdeal := fun m ρ _ =>
  (θ_run Cert.KernelIdeal.defs _ _).mono (fun _ h c => ⟨(h c).2.1, (h c).2.2⟩) (Cert.Proof.KI.run (F := Ideal) m ρ)

/-- So does the reference. -/
theorem frame_ri : Cert.frame_ReferenceIdeal := fun m ρ _ =>
  (θ_run Cert.ReferenceIdeal.defs _ _).mono (fun _ h c => ⟨(h c).2.1, (h c).2.2⟩) (Cert.ReferenceIdeal.RefValue.run (F := Ideal) m ρ)

/-- Both idealized programs end with the lookup of their (agreeing) arguments. -/
theorem algebraic : Cert.algebraic_KernelIdeal_ReferenceIdeal := by
  intro m ρ m' ρ' _ hagree
  refine ⟨fun c => Cert.Proof.KI.outG m c, Cert.Proof.KI.run (F := Ideal) m ρ, ?_⟩
  refine (θ_run Cert.ReferenceIdeal.defs _ _).mono (fun _ h c => ⟨(h c).1.trans ?_, (h c).2.1, (h c).2.2⟩)
    (Cert.ReferenceIdeal.RefValue.run (F := Ideal) m' ρ')
  rw [(hagree c).1, (hagree c).2]
  rfl

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
